-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x256 .f32) (main_arg1 : FVec F S4096x256 .f32) (main_arg2 : FVec F S4096 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x256 : Shape := ⟨2, ![4096, 256]⟩
abbrev S4096 : Shape := ⟨1, ![4096]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S1024x1 : Shape := ⟨2, ![1024, 1]⟩
abbrev S512x256 : Shape := ⟨2, ![512, 256]⟩
abbrev S1024x512 : Shape := ⟨2, ![1024, 512]⟩
abbrev S1024 : Shape := ⟨1, ![1024]⟩
abbrev S1x4096 : Shape := ⟨2, ![1, 4096]⟩
abbrev S2x4096 : Shape := ⟨2, ![2, 4096]⟩

abbrev nBuf : Space → Nat
  | .hbm => 41
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x256, .f32⟩
  | .hbm, ⟨13, _⟩ => ⟨S8192x256, .f32⟩
  | .hbm, ⟨14, _⟩ => ⟨S8192x1, .f32⟩
  | .hbm, ⟨15, _⟩ => ⟨S8192, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S4096, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S1x4096, .f32⟩
  | .hbm, ⟨33, _⟩ => ⟨S2x4096, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S8192x256, .f32⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S8192x256_S512x256_0_0 : ∀ a, (![0, 0] : Fin 2 → Nat) a + S512x256.size a ≤ S8192x256.size a
  h_S512x256 : 0 < S512x256.numel
  shapeCasts_S512x256_S512x256 : S512x256.ShapeCasts S512x256
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  inb_S8192x256_S512x256_512_0 : ∀ a, (![512, 0] : Fin 2 → Nat) a + S512x256.size a ≤ S8192x256.size a
  inb_S8192x256_S512x256_1024_0 : ∀ a, (![1024, 0] : Fin 2 → Nat) a + S512x256.size a ≤ S8192x256.size a
  inb_S8192x256_S512x256_1536_0 : ∀ a, (![1536, 0] : Fin 2 → Nat) a + S512x256.size a ≤ S8192x256.size a
  inb_S8192x256_S512x256_2048_0 : ∀ a, (![2048, 0] : Fin 2 → Nat) a + S512x256.size a ≤ S8192x256.size a
  inb_S8192x256_S512x256_2560_0 : ∀ a, (![2560, 0] : Fin 2 → Nat) a + S512x256.size a ≤ S8192x256.size a
  inb_S8192x256_S512x256_3072_0 : ∀ a, (![3072, 0] : Fin 2 → Nat) a + S512x256.size a ≤ S8192x256.size a
  inb_S8192x256_S512x256_3584_0 : ∀ a, (![3584, 0] : Fin 2 → Nat) a + S512x256.size a ≤ S8192x256.size a
  inb_S8192x256_S512x256_4096_0 : ∀ a, (![4096, 0] : Fin 2 → Nat) a + S512x256.size a ≤ S8192x256.size a
  inb_S8192x256_S512x256_4608_0 : ∀ a, (![4608, 0] : Fin 2 → Nat) a + S512x256.size a ≤ S8192x256.size a
  inb_S8192x256_S512x256_5120_0 : ∀ a, (![5120, 0] : Fin 2 → Nat) a + S512x256.size a ≤ S8192x256.size a
  inb_S8192x256_S512x256_5632_0 : ∀ a, (![5632, 0] : Fin 2 → Nat) a + S512x256.size a ≤ S8192x256.size a
  inb_S8192x256_S512x256_6144_0 : ∀ a, (![6144, 0] : Fin 2 → Nat) a + S512x256.size a ≤ S8192x256.size a
  inb_S8192x256_S512x256_6656_0 : ∀ a, (![6656, 0] : Fin 2 → Nat) a + S512x256.size a ≤ S8192x256.size a
  inb_S8192x256_S512x256_7168_0 : ∀ a, (![7168, 0] : Fin 2 → Nat) a + S512x256.size a ≤ S8192x256.size a
  inb_S8192x256_S512x256_7680_0 : ∀ a, (![7680, 0] : Fin 2 → Nat) a + S512x256.size a ≤ S8192x256.size a
  shapeCasts_S8192x1_S8192 : S8192x1.ShapeCasts S8192
  slices_S8192x256_S4096x256_0_0 : S8192x256.Slices ![0, 0] S4096x256
  slices_S8192x256_S4096x256_4096_0 : S8192x256.Slices ![4096, 0] S4096x256
  reducesTo_S4096x256_S4096_d1 : S4096x256.ReducesTo [1] S4096
  concatenates_S4096_S4096_S8192_d0 : Shape.Concatenates [S4096, S4096] S8192 0
  bcast_S_S8192 : S_.BroadcastsInDim S8192 (![] : Fin 0 → Fin S8192.rank)
  shapeCasts_S4096_S1x4096 : S4096.ShapeCasts S1x4096
  bcast_S1x4096_S2x4096_0_1 : S1x4096.BroadcastsInDim S2x4096 (![0, 1] : Fin 2 → Fin S2x4096.rank)
  shapeCasts_S2x4096_S8192 : S2x4096.ShapeCasts S8192
  reducesTo_S8192_S_d0 : S8192.ReducesTo [0] S_
  dot_S1024x256_S512x256_S1024x512_1_1_0_0_n_n_wf : DotDims.WF S1024x256 S512x256 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_v5) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096 : Shape := ⟨1, ![4096]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S4096x1 : Shape := ⟨2, ![4096, 1]⟩
abbrev S4096x2 : Shape := ⟨2, ![4096, 2]⟩
abbrev S1x4096 : Shape := ⟨2, ![1, 4096]⟩
abbrev S2x4096 : Shape := ⟨2, ![2, 4096]⟩

abbrev nBuf : Space → Nat
  | .hbm => 96
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x256, .f32⟩
  | .hbm, ⟨13, _⟩ => ⟨S8192x256, .f32⟩
  | .hbm, ⟨14, _⟩ => ⟨S256x8192, .f32⟩
  | .hbm, ⟨15, _⟩ => ⟨S8192x8192, .f32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S4096x1, .i32⟩
  | .hbm, ⟨36, _⟩ => ⟨S4096x1, .i32⟩
  | .hbm, ⟨37, _⟩ => ⟨S4096x2, .i32⟩
  | .hbm, ⟨38, _⟩ => ⟨S4096, .f32⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096x1, .i32⟩
  | .hbm, ⟨59, _⟩ => ⟨S4096x1, .i32⟩
  | .hbm, ⟨60, _⟩ => ⟨S4096x2, .i32⟩
  | .hbm, ⟨61, _⟩ => ⟨S4096, .f32⟩
  | .hbm, ⟨62, _⟩ => ⟨S8192, .f32⟩
  | .hbm, ⟨63, _⟩ => ⟨S8192x8192, .i32⟩
  | .hbm, ⟨64, _⟩ => ⟨S8192x8192, .i32⟩
  | .hbm, ⟨65, _⟩ => ⟨S_, .i32⟩
  | .hbm, ⟨66, _⟩ => ⟨S8192x8192, .i32⟩
  | .hbm, ⟨67, _⟩ => ⟨S8192x8192, .i32⟩
  | .hbm, ⟨68, _⟩ => ⟨S8192x8192, .i1⟩
  | .hbm, ⟨69, _⟩ => ⟨S8192x8192, .f32⟩
  | .hbm, ⟨70, _⟩ => ⟨S_, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S8192, .f32⟩
  | .hbm, ⟨80, _⟩ => ⟨S_, .f32⟩
  | .hbm, ⟨81, _⟩ => ⟨S8192, .f32⟩
  | .hbm, ⟨82, _⟩ => ⟨S8192, .f32⟩
  | .hbm, ⟨83, _⟩ => ⟨S8192, .f32⟩
  | .hbm, ⟨84, _⟩ => ⟨S8192, .f32⟩
  | .hbm, ⟨85, _⟩ => ⟨S8192, .f32⟩
  | .hbm, ⟨86, _⟩ => ⟨S8192, .f32⟩
  | .hbm, ⟨87, _⟩ => ⟨S1x4096, .f32⟩
  | .hbm, ⟨88, _⟩ => ⟨S2x4096, .f32⟩
  | .hbm, ⟨89, _⟩ => ⟨S8192, .f32⟩
  | .hbm, ⟨90, _⟩ => ⟨S8192, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_v0 : Ref sig .tc := ⟨.hbm, 16, rfl⟩
abbrev main_call1_v1 : Ref sig .tc := ⟨.hbm, 17, rfl⟩
abbrev main_call1_c : Ref sig .tc := ⟨.hbm, 18, rfl⟩
abbrev main_call1_v2 : Ref sig .tc := ⟨.hbm, 19, rfl⟩
abbrev main_call1_v3 : Ref sig .tc := ⟨.hbm, 20, rfl⟩
abbrev main_call1_c_0 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_c_2 : Ref sig .tc := ⟨.hbm, 28, rfl⟩
abbrev main_call1_v9 : Ref sig .tc := ⟨.hbm, 29, rfl⟩
abbrev main_call1_v10 : Ref sig .tc := ⟨.hbm, 30, rfl⟩
abbrev main_call1_c_3 : Ref sig .tc := ⟨.hbm, 31, rfl⟩
abbrev main_call1_v11 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_call1_v15 : Ref sig .tc := ⟨.hbm, 36, rfl⟩
abbrev main_call1_v16 : Ref sig .tc := ⟨.hbm, 37, rfl⟩
abbrev main_v8 : Ref sig .tc := ⟨.hbm, 38, rfl⟩
abbrev main_call2_v0 : Ref sig .tc := ⟨.hbm, 39, rfl⟩
abbrev main_call2_v1 : Ref sig .tc := ⟨.hbm, 40, rfl⟩
abbrev main_call2_c : Ref sig .tc := ⟨.hbm, 41, rfl⟩
abbrev main_call2_v2 : Ref sig .tc := ⟨.hbm, 42, rfl⟩
abbrev main_call2_v3 : Ref sig .tc := ⟨.hbm, 43, rfl⟩
abbrev main_call2_c_0 : Ref sig .tc := ⟨.hbm, 44, rfl⟩
abbrev main_call2_v4 : Ref sig .tc := ⟨.hbm, 45, rfl⟩
abbrev main_call2_v5 : Ref sig .tc := ⟨.hbm, 46, rfl⟩
abbrev main_call2_c_1 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_c_2 : Ref sig .tc := ⟨.hbm, 51, rfl⟩
abbrev main_call2_v9 : Ref sig .tc := ⟨.hbm, 52, rfl⟩
abbrev main_call2_v10 : Ref sig .tc := ⟨.hbm, 53, rfl⟩
abbrev main_call2_c_3 : Ref sig .tc := ⟨.hbm, 54, rfl⟩
abbrev main_call2_v11 : Ref sig .tc := ⟨.hbm, 55, rfl⟩
abbrev main_call2_v12 : Ref sig .tc := ⟨.hbm, 56, rfl⟩
abbrev main_call2_v13 : Ref sig .tc := ⟨.hbm, 57, rfl⟩
abbrev main_call2_v14 : Ref sig .tc := ⟨.hbm, 58, rfl⟩
abbrev main_call2_v15 : Ref sig .tc := ⟨.hbm, 59, rfl⟩
abbrev main_call2_v16 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_c : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_cst_0 : Ref sig .tc := ⟨.hbm, 70, rfl⟩
abbrev main_v17 : Ref sig .tc := ⟨.hbm, 71, rfl⟩
abbrev main_v18 : Ref sig .tc := ⟨.hbm, 72, rfl⟩
abbrev main_cst_1 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_cst_2 : Ref sig .tc := ⟨.hbm, 78, rfl⟩
abbrev main_v23 : Ref sig .tc := ⟨.hbm, 79, rfl⟩
abbrev main_cst_3 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_cst_4 : Ref sig .tc := ⟨.hbm, 91, rfl⟩
abbrev main_v34 : Ref sig .tc := ⟨.hbm, 92, rfl⟩
abbrev main_cst_5 : Ref sig .tc := ⟨.hbm, 93, rfl⟩
abbrev main_v35 : Ref sig .tc := ⟨.hbm, 94, rfl⟩
abbrev main_v36 : Ref sig .tc := ⟨.hbm, 95, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  shapeCasts_S4096_S1x4096 : S4096.ShapeCasts S1x4096
  bcast_S1x4096_S2x4096_0_1 : S1x4096.BroadcastsInDim S2x4096 (![0, 1] : Fin 2 → Fin S2x4096.rank)
  shapeCasts_S2x4096_S8192 : S2x4096.ShapeCasts S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.KB.Run.lean ====
/-
  The kernel body run once on whole staging buffers.

  The body zeroes its scratch column, loads the row tile, and for each of the sixteen column chunks of the resident
  operand loads the chunk, forms the tile-by-chunk products, masks the diagonal, exponentiates, sums along the chunk and
  adds the sums into the scratch column; at the end it copies the scratch column into the output block.  Stated here:
  from the two input buffers at given contents and the output and scratch buffers at anything, the body runs to the
  inputs unchanged and the output and scratch buffers at the pieces its stores wrote (the witness the run finds).
-/
import proofs.«123943_j34471407518032_2_alg».proof.Proof.Gen.Kernel.Launch
import proofs.«123943_j34471407518032_2_alg».proof.Proof.Gen.Kernel.Skeleton
import proofs.«123943_j34471407518032_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the scratch column (last first), with the proof that
    the body runs from whole buffers — the inputs at `x0`, `x1`, the output and the scratch at anything — to the
    continuation holding the inputs as they were and the other two with their pieces written. -/
noncomputable def kernelRun0 (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1024x1 .f32) (harg3 : arg3.IsWhole) (arg4 : Memref sig .tc .vmem S1024x1 .f32) (harg4 : arg4.IsWhole)
    (x0 : Vec F S1024x256 .f32) (x1 : Vec F S8192x256 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__denom_kernel i arg1 harg1 arg2 harg2 arg3 harg3 arg4 harg4) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.LibSharedFrame.lean ====
/-
  The frame run of a kernel region whose windows may SHARE an array, for a program that goes on after the region with
  lines of host operations.

  When two input windows of one pipeline read the same array, the buffer behind it cannot be handed to each window at the
  full share.  The certificate says how the distinct buffers behind the arrays, each whole at the full share, are dealt
  among the windows at the region's entry (`hsplit0`), how the windows' holdings at the region's exit make those buffers
  whole again (`hjoinN`), and how they are dealt once more for the final reading (`hsplitN`).  Between the two the
  lines after the region run within all the unscoped buffers, held whole.  The conclusion is the frame post: every
  array of the pipeline at what the proof data compute after the last point, every other unscoped buffer at what the
  lines leave.
-/
import Idealize.ShloMosaic.Lib.Pipeline.FrameSuffix

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- THE FRAME RUN of a region whose windows may share arrays, continued by the host lines `opss`: the layout facts by
    name (no distinctness of the arrays), the dealing of the buffers behind the arrays at entry (`hsplit0`, from the
    entry contents `V₀`) and at exit (`hjoinN`, `hsplitN`, at contents `W₀` that agree with `V₀` off the arrays:
    `hW`). -/
theorem θ_run_frame_around_shared
    (hw : WinFacts₀ (cfg).spec) (hcell : Function.Injective (cellOf (nD := nD) (τ := τ) cfgs))
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ W₀ : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hW : ∀ c (b : Ref sig .tc), (∀ w, arrRef (cfg).spec w ≠ b) → W₀ c (Proc.devRef .tc b) = V₀ c (Proc.devRef .tc b))
    (hsplit0 : ∀ c, (arrBufs (cfg).spec c (fun b => V₀ c (Proc.devRef .tc b)) : sProp 𝕄) ⊢ (dats p c).arrays ((dats p c).arrAt · 0))
    (hjoinN : ∀ c, (dats p c).arrays ((dats p c).arrAt · (cfg).N) ⊢ (arrBufs (cfg).spec c (fun b => W₀ c (Proc.devRef .tc b)) : sProp 𝕄))
    (hsplitN : ∀ c, (arrBufs (cfg).spec c (fun b => W₀ c (Proc.devRef .tc b)) : sProp 𝕄) ⊢ (dats p c).arrays ((dats p c).arrAt · (cfg).N))
    (hin : ∀ c, ΦA (cfg).spec c ⊢ (dats p c).Φ 0) (hout : ∀ c, (dats p c).Φ (Fin.last (cfg).N) ⊢ ΦA (cfg).spec c) :
    θ_run 𝔻 (onTc main) (s₀ m g)
      (FramePost cfgs dats p (fun c b => StableHlo.after opss.flatten (W₀ c) (Proc.devRef .tc b))) := by
  classical
  -- the unscoped buffers that are no array hold the same under the entry and the exit contents
  have hrest : ∀ c, (unscopedRest (Ix := Unit) (Name := ℕ) (U := UR sig nD τ) (Lvl := ℕ) (cfg).spec c (fun b => V₀ c (Proc.devRef .tc b)) : sProp 𝕄)
      = unscopedRest (cfg).spec c (fun b => W₀ c (Proc.devRef .tc b)) := fun c => by
    unfold unscopedRest
    exact bigSep_congr fun b hb => by
      dsimp only
      rw [hW c b fun w e => (Finset.mem_sdiff.mp hb).2 (Finset.mem_image.mpr ⟨w, Finset.mem_univ _, e⟩)]
  -- the lines write no array: the buffers behind the arrays hold the exit contents after them
  have harrs : ∀ c, (arrBufs (Ix := Unit) (Name := ℕ) (U := UR sig nD τ) (Lvl := ℕ) (cfg).spec c (fun b => StableHlo.after opss.flatten (W₀ c) (Proc.devRef .tc b)) : sProp 𝕄)
      = arrBufs (cfg).spec c (fun b => W₀ c (Proc.devRef .tc b)) := fun c => by
    unfold arrBufs
    exact bigSep_congr fun b hb => by
      obtain ⟨w, -, rfl⟩ := Finset.mem_image.mp hb
      dsimp only
      rw [StableHlo.after_of_forall_not_mem _ _ fun op hop => ?_]
      obtain ⟨ops, hops, hop⟩ := List.mem_flatten.mp hop
      exact hkeep ops hops op hop w
  exact θ_run_region_pf_tail (fun q => (cfgs q).toPCfg (Val := Val)) (fun q => (cfgs q).toPCfg_adm) dats () hcell p hw
    (OwnSemFacts.none (cfg).spec) (PreFacts.none _) emb₁ defs₀ 𝒱₀ m g main
    (fun _ => chain (opss.map StableHlo.seq)) hbody hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit0)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (W₀ c) (Proc.devRef .tc b)))
    (hX := fun c => by
      rw [unscopedRestP_none]
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      rw [hrest c]
      have hstart : iprop((dats p c).arrays ((dats p c).arrAt · (cfg).N)
            ∗ unscopedRest (Ix := Unit) (Name := ℕ) (U := UR sig nD τ) (Lvl := ℕ) (cfg).spec c (fun b => W₀ c (Proc.devRef .tc b)))
          ⊢ (StableHlo.held (c.tc : Thread nD τ) (ucRefs τ sig) (W₀ c) : sProp 𝕄) := by
        rw [← unscopedBufs_held (Ix := Unit) (Name := ℕ) (U := UR sig nD τ) (Lvl := ℕ) c (W₀ c),
          unscopedBufs_split₀ cfgs p hw.arr_unscoped c]
        iintro ⟨Ha, Hz⟩
        isplitl [Ha]
        · iapply (hjoinN c); iexact Ha
        iexact Hz
      have hend : (StableHlo.held (c.tc : Thread nD τ) (ucRefs τ sig) (StableHlo.after opss.flatten (W₀ c)) : sProp 𝕄)
          ⊢ iprop((dats p c).arrays ((dats p c).arrAt · (cfg).N)
            ∗ unscopedRest (Ix := Unit) (Name := ℕ) (U := UR sig nD τ) (Lvl := ℕ) (cfg).spec c (fun b => StableHlo.after opss.flatten (W₀ c) (Proc.devRef .tc b))) := by
        rw [← unscopedBufs_held (Ix := Unit) (Name := ℕ) (U := UR sig nD τ) (Lvl := ℕ) c (StableHlo.after opss.flatten (W₀ c)),
          unscopedBufs_split₀ cfgs p hw.arr_unscoped c, harrs c]
        iintro ⟨Ha, Hz⟩
        isplitl [Ha]
        · iapply (hsplitN c); iexact Ha
        iexact Hz
      rw [← List.append_nil (opss.map StableHlo.seq)]
      iintro ⟨Hk, Hb, Ha, Hz⟩
      ihave Hu := hstart $$ [Ha Hz]
      · isplitl [Ha] <;> iassumption
      iapply (wp_seqs_then (fun q => (cfgs q).toPCfg (Val := Val)) defs₀ 𝒱₀ c (ucRefs τ sig) [] opss
        (fun ops ho op h => sub_ucRefs op (hsub ops ho op h)) hfresh (W₀ c)) $$ [Hb Hu]
      · isplitl [Hb] <;> iassumption
      iintro ⟨Hb, Hu⟩
      rw [chain_nil, wp_pure]
      imodintro
      iapply Hk
      iapply hend; iexact Hu)
    (QY := fun c s => ∀ b ∈ restRefs sig (cfg).spec, s.mem ((c.tc : Thread nD τ).loc b) = StableHlo.after opss.flatten (W₀ c) (Proc.devRef .tc b))
    (hY := fun c s' => by
      iintro ⟨-, HU, HSI⟩
      unfold unscopedRest
      imodintro
      iapply (pointsTo_read_all (restRefs sig (cfg).spec) (fun b => (c.tc : Thread nD τ).loc b)
        (fun b => StableHlo.after opss.flatten (W₀ c) (Proc.devRef .tc b)) s')
      isplitl [HU] <;> iassumption)
    (hQ := fun s h c => ⟨(h c).1, (h c).2.2⟩)

end SharedFrame

end Pipeline

end Idealize.ShloMosaic

end
-- ==== Proof.KB.Data.lean ====
/-
  The proof data of the kernel region: what the region finds in its arrays, what each window's staging buffer holds
  before and after the body at each grid point, and the body obligation.

  The region is entered after eleven host operations that build the normalised rows (an 8192×256 array).  Window 0
  stages the 1024 rows of the point, window 1 the whole array (one array read through two windows), window 2 the
  1024×1 output block of the point.  The body leaves the input buffers as it found them; it stores the scratch column
  whole before reading it, so nothing is carried from one point to the next and the region invariant is the same at
  every point: the scratch column at anything and the generator register at some state.
-/
import proofs.«123943_j34471407518032_2_alg».proof.Proof.KB.Run
import proofs.«123943_j34471407518032_2_alg».proof.Proof.LibSharedFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the eleven host operations before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it: it reduces to the region continued
    by the later lines, the unscoped buffers at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's likewise: fetched at the first point only, its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point, the scratch column, the invariant -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

abbrev VO0_2 : View sig .tc .vmem S1024x1 .f32 := (Memref.whole cc0_stg2_0 : Memref sig .tc .vmem S1024x1 .f32).view
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev scM0_0 : Memref sig .tc .vmem S1024x1 .f32 := Memref.whole cc0_scratch0

/-- The region invariant: the scratch column owned at some contents, the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the body leaves in the output block -/

/-- The pieces the body stores into the output block tile it, so they cover it. -/
theorem cover0_2 (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1024x1 .f32) (harg3 : arg3.IsWhole) (arg4 : Memref sig .tc .vmem S1024x1 .f32) (harg4 : arg4.IsWhole)
    (x0 : Vec F S1024x256 .f32) (x1 : Vec F S8192x256 .f32) (y : S1024x1.Idx) :
    ∃ pc ∈ (kernelRun0 c i arg1 harg1 arg2 harg2 arg3 harg3 arg4 harg4 x0 x1).1, y ∈ pc.1.set :=
  View.cover_of_tiledL (kernelRun0 c i arg1 harg1 arg2 harg2 arg3 harg3 arg4 harg4 x0 x1).1 S1024x1.size (by sl_kernel_rfl) y

/-- What the body leaves in the output block: its pieces read back. -/
def out0_2 (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1024x1 .f32) (harg3 : arg3.IsWhole) (arg4 : Memref sig .tc .vmem S1024x1 .f32) (harg4 : arg4.IsWhole)
    (x0 : Vec F S1024x256 .f32) (x1 : Vec F S8192x256 .f32) : Vec F S1024x1 .f32 :=
  VO0_2.read (Elt F) (VO0_2.writes (Elt F) VO0_2.junk (kernelRun0 c i arg1 harg1 arg2 harg2 arg3 harg3 arg4 harg4 x0 x1).1)

/-- The output block after the body at point `t`: the body run at the point's memrefs and input blocks. -/
def outAt0 (c : Dev nD) (t : Fin cfg0.N) : Vec F S1024x1 .f32 :=
  out0_2 c (grid0.coords t) (ms0_0 t) (hs0_0 t) (ms0_1 t) (hs0_1 t) (ms0_2 t) (hs0_2 t) scM0_0 (Memref.isWhole_whole _) (iblk m c 0 t) (iblk m c 1 t)

/-! ## The proof data -/

/-- The proof data on core `c`: the arrays as the region finds them; after the body each input's buffer at its block
    and the output's at `outAt0`; the one invariant; nothing owed; the shared array's full share dealt in two halves
    between the two input windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt0 m c t
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks, the invariant hands over the scratch column at
    anything and takes it back at anything, the output block ends at its pieces read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  unfold outAt0 out0_2; (try dsimp only)
  iintro ⟨⟨HS0, Hg⟩, Ho, ⟨%d0, H0⟩, ⟨%d1, H1⟩, ⟨%d2, H2⟩⟩
  iapply ((kernelRun0 c (grid0.coords t) _ _ _ _ _ _ _ _ (iblk m c 0 t) (iblk m c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = Pipeline.ΦA spec0 c from rfl]
  try exact Idealize.SL.BI.Entails.refl _

end Cert.Kernel.Hand

end
-- ==== Proof.KB.Launch.lean ====
/-
  The launch of the kernel region and the frame.

  The normalised rows' array is read through two input windows.  At the region's entry its buffer, whole at the full
  share, is dealt in two halves, one to each window; the output array's buffer goes to the output window whole.  Input
  windows are never written back, so at the region's exit the two halves hold the same contents and join to the full
  share again; the output array holds what the proof data compute after the last point.  The host lines after the
  region then run within all the unscoped buffers.  No host line and no write-back touches an argument array.
-/
import proofs.«123943_j34471407518032_2_alg».proof.Proof.KB.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers behind the windows' arrays -/

/-- The three windows stand on two buffers. -/
theorem arrRefs_eq : Finset.univ.image (Pipeline.arrRef spec0) = [main_v5, main_v6].toFinset := by decide

/-- The distinct buffers behind the arrays, each whole at the full share, one by one. -/
theorem arrBufs_eq (c : Dev nD) (Vb : (b : Ref sig .tc) → Buf (Elt F) ((c : Thread nD τ).loc b)) :
    (Pipeline.arrBufs (Ix := Unit) (Name := ℕ) (U := UR sig nD τ) (Lvl := ℕ) spec0 c Vb : sProp 𝕄)
      = iprop((((c : Thread nD τ).loc main_v5) ↦{fullShare} Vb main_v5) ∗ (((c : Thread nD τ).loc main_v6) ↦{fullShare} Vb main_v6)) := by
  unfold Pipeline.arrBufs
  rw [bigSep_eq_bigSepL_of_eq [main_v5, main_v6] arrRefs_eq (by decide)]
  rfl

/-- The windows' holdings one by one: the shared array's two halves, the output array whole. -/
theorem arrays_eq3 (c : Dev nD) (Fw : (w : Fin cfg0.W) → Buf (Elt F) ((cfg0.win w).arr.view.loc (c : Thread nD τ))) :
    ((dats m 0 c).arrays Fw : sProp 𝕄)
      = iprop((((c : Thread nD τ).loc main_v5) ↦{fullShare.left} Fw 0) ∗ (((c : Thread nD τ).loc main_v5) ↦{fullShare.right} Fw 1)
          ∗ (((c : Thread nD τ).loc main_v6) ↦{fullShare} Fw 2)) := by
  unfold Dat.arrays
  rw [bigSep_W0, (arr_whole0 0).set_eq_univ, (arr_whole0 2).set_eq_univ]
  rfl

/-- Input windows are never written back: the shared array holds its entry contents at every point. -/
theorem arrAt0_0 (c : Dev nD) (n : ℕ) : (dats m 0 c).arrAt 0 n = V m c main_v5 :=
  ((dats m 0 c).arrAt_in 0 rfl n).trans (A_eq m c 0)
theorem arrAt0_1 (c : Dev nD) (n : ℕ) : (dats m 0 c).arrAt 1 n = V m c main_v5 :=
  ((dats m 0 c).arrAt_in 1 rfl n).trans (A_eq m c 1)
theorem arrAt0_2_zero (c : Dev nD) : (dats m 0 c).arrAt 2 0 = V m c main_v6 := A_eq m c 2

/-- The contents of core `c`'s unscoped buffers at the region's exit: the entry contents, the output array at what the
    proof data compute after the last point. -/
def W0 (c : Dev nD) : Valuation τ sig (Elt F) :=
  Function.update (V0 m c) (Proc.devRef .tc main_v6) ((dats m 0 c).arrAt 2 cfg0.N)

theorem W0_v6 (c : Dev nD) : W0 m c (Proc.devRef .tc main_v6) = (dats m 0 c).arrAt 2 cfg0.N := by
  unfold W0; exact Function.update_self ..

theorem W0_of_ne (c : Dev nD) (b : Ref sig .tc) (hb : b ≠ main_v6) : W0 m c (Proc.devRef .tc b) = V0 m c (Proc.devRef .tc b) := by
  unfold W0; exact Function.update_of_ne (StableHlo.devRef_ne_of_ne hb) ..

/-- ENTRY: the shared array's buffer is dealt in two halves. -/
theorem hsplit0 (c : Dev nD) :
    (Pipeline.arrBufs (Ix := Unit) (Name := ℕ) (U := UR sig nD τ) (Lvl := ℕ) spec0 c (fun b => V0 m c (Proc.devRef .tc b)) : sProp 𝕄)
      ⊢ (dats m 0 c).arrays ((dats m 0 c).arrAt · 0) := by
  rw [arrBufs_eq, arrays_eq3, arrAt0_0, arrAt0_1, arrAt0_2_zero]
  iintro ⟨H5, H6⟩
  ihave H := (pointsTo_share (PosShare.mem_left_op_right fullShare)).1 $$ H5
  icases H with ⟨HL, HR⟩
  isplitl [HL]; · iexact HL
  isplitl [HR]; · iexact HR
  iexact H6

/-- EXIT: the two halves join. -/
theorem hjoinN (c : Dev nD) :
    (dats m 0 c).arrays ((dats m 0 c).arrAt · cfg0.N)
      ⊢ (Pipeline.arrBufs (Ix := Unit) (Name := ℕ) (U := UR sig nD τ) (Lvl := ℕ) spec0 c (fun b => W0 m c (Proc.devRef .tc b)) : sProp 𝕄) := by
  rw [arrBufs_eq, arrays_eq3, arrAt0_0, arrAt0_1, W0_v6, W0_of_ne m c main_v5 (by decide)]
  iintro ⟨HL, HR, H6⟩
  isplitl [HL HR]
  · iapply (pointsTo_share (PosShare.mem_left_op_right fullShare)).2
    isplitl [HL] <;> iassumption
  iexact H6

/-- And are dealt again for the final reading. -/
theorem hsplitN (c : Dev nD) :
    (Pipeline.arrBufs (Ix := Unit) (Name := ℕ) (U := UR sig nD τ) (Lvl := ℕ) spec0 c (fun b => W0 m c (Proc.devRef .tc b)) : sProp 𝕄)
      ⊢ (dats m 0 c).arrays ((dats m 0 c).arrAt · cfg0.N) := by
  rw [arrBufs_eq, arrays_eq3, arrAt0_0, arrAt0_1, W0_v6, W0_of_ne m c main_v5 (by decide)]
  iintro ⟨H5, H6⟩
  ihave H := (pointsTo_share (PosShare.mem_left_op_right fullShare)).1 $$ H5
  icases H with ⟨HL, HR⟩
  isplitl [HL]; · iexact HL
  isplitl [HR]; · iexact HR
  iexact H6

/-! ## The lines after the region -/

theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- They write no array of the pipeline: each writes only its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The run and the frame -/

set_option backward.isDefEq.respectTransparency.types false in
/-- From any memory with zero counters every weakly fair execution of @main terminates, every array of the pipeline
    ends at what the proof data compute and every other unscoped buffer at what the later host lines leave. -/
theorem run_main : θ_run defs (onTc (τ := τ) (main (F := F))) (s₀ m ρ)
    (Pipeline.FramePost cfgs (dats m) 0 (fun c b => StableHlo.after (List.flatten [hostOps1]) (W0 m c) (Proc.devRef .tc b))) :=
  Pipeline.θ_run_frame_around_shared cfgs (dats m) (0 : Fin 1) defs₀ Variants.none winFacts₀0 cellOf_inj block_pos0 arr_whole0 stage_whole0
    m ρ main (hbody := fun c => (body_obligation m c).loose) (howed := fun _ _ => rfl)
    (V₀ := V0 m) (W₀ := W0 m) (opss := [hostOps1]) (hsub := sfx_sub) (hfresh := sfx_fresh) (hkeep := sfx_keeps)
    (hmain := hmain m Variants.none)
    (hW := fun c b hb => W0_of_ne m c b (fun e => hb 2 e.symm))
    (hsplit0 := hsplit0 m) (hjoinN := hjoinN m) (hsplitN := hsplitN m) (hin := hin m) (hout := hout m)

/-- No host line after the region writes an argument. -/
theorem tail_keeps (Wv : Valuation τ sig (Elt F)) (b : Ref sig .tc) (hb : b = main_arg0 ∨ b = main_arg1 ∨ b = main_arg2) :
    StableHlo.after (List.flatten [hostOps1 (F := F)]) Wv (Proc.devRef .tc b) = Wv (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    rcases hb with rfl | rfl | rfl
    all_goals repeat' apply And.intro
    all_goals exact StableHlo.devRef_ne_of_ne (by decide)))

/-- THE FRAME: every weakly fair execution terminates, nothing faulting, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans
        ((tail_keeps _ main_arg0 (.inl rfl)).trans ((W0_of_ne m c main_arg0 (by decide)).trans (V_main_arg0 m c))),
      ((h c).2 main_arg1 (Pipeline.mem_restRefs_of main_arg1 (by decide) (by decide))).trans
        ((tail_keeps _ main_arg1 (.inr (.inl rfl))).trans ((W0_of_ne m c main_arg1 (by decide)).trans (V_main_arg1 m c))),
      ((h c).2 main_arg2 (Pipeline.mem_restRefs_of main_arg2 (by decide) (by decide))).trans
        ((tail_keeps _ main_arg2 (.inr (.inr rfl))).trans ((W0_of_ne m c main_arg2 (by decide)).trans (V_main_arg2 m c)))⟩) (run_main m ρ)

end Cert.Kernel.Hand

end
-- ==== Proof.KI.Run.lean ====
/-
  The kernel body run once on whole staging buffers.

  The body zeroes its scratch column, loads the row tile, and for each of the sixteen column chunks of the resident
  operand loads the chunk, forms the tile-by-chunk products, masks the diagonal, exponentiates, sums along the chunk and
  adds the sums into the scratch column; at the end it copies the scratch column into the output block.  Stated here:
  from the two input buffers at given contents and the output and scratch buffers at anything, the body runs to the
  inputs unchanged and the output and scratch buffers at the pieces its stores wrote (the witness the run finds).
-/
import proofs.«123943_j34471407518032_2_alg».proof.Proof.Gen.KernelIdeal.Launch
import proofs.«123943_j34471407518032_2_alg».proof.Proof.Gen.KernelIdeal.Skeleton
import proofs.«123943_j34471407518032_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the scratch column (last first), with the proof that
    the body runs from whole buffers — the inputs at `x0`, `x1`, the output and the scratch at anything — to the
    continuation holding the inputs as they were and the other two with their pieces written. -/
noncomputable def kernelRun0 (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1024x1 .f32) (harg3 : arg3.IsWhole) (arg4 : Memref sig .tc .vmem S1024x1 .f32) (harg4 : arg4.IsWhole)
    (x0 : Vec F S1024x256 .f32) (x1 : Vec F S8192x256 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__denom_kernel i arg1 harg1 arg2 harg2 arg3 harg3 arg4 harg4) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.Data.lean ====
/-
  The proof data of the kernel region: what the region finds in its arrays, what each window's staging buffer holds
  before and after the body at each grid point, and the body obligation.

  The region is entered after eleven host operations that build the normalised rows (an 8192×256 array).  Window 0
  stages the 1024 rows of the point, window 1 the whole array (one array read through two windows), window 2 the
  1024×1 output block of the point.  The body leaves the input buffers as it found them; it stores the scratch column
  whole before reading it, so nothing is carried from one point to the next and the region invariant is the same at
  every point: the scratch column at anything and the generator register at some state.
-/
import proofs.«123943_j34471407518032_2_alg».proof.Proof.KI.Run
import proofs.«123943_j34471407518032_2_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the eleven host operations before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it: it reduces to the region continued
    by the later lines, the unscoped buffers at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's likewise: fetched at the first point only, its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point, the scratch column, the invariant -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

abbrev VO0_2 : View sig .tc .vmem S1024x1 .f32 := (Memref.whole cc0_stg2_0 : Memref sig .tc .vmem S1024x1 .f32).view
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev scM0_0 : Memref sig .tc .vmem S1024x1 .f32 := Memref.whole cc0_scratch0

/-- The region invariant: the scratch column owned at some contents, the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the body leaves in the output block -/

/-- The pieces the body stores into the output block tile it, so they cover it. -/
theorem cover0_2 (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1024x1 .f32) (harg3 : arg3.IsWhole) (arg4 : Memref sig .tc .vmem S1024x1 .f32) (harg4 : arg4.IsWhole)
    (x0 : Vec F S1024x256 .f32) (x1 : Vec F S8192x256 .f32) (y : S1024x1.Idx) :
    ∃ pc ∈ (kernelRun0 c i arg1 harg1 arg2 harg2 arg3 harg3 arg4 harg4 x0 x1).1, y ∈ pc.1.set :=
  View.cover_of_tiledL (kernelRun0 c i arg1 harg1 arg2 harg2 arg3 harg3 arg4 harg4 x0 x1).1 S1024x1.size (by sl_kernel_rfl) y

/-- What the body leaves in the output block: its pieces read back. -/
def out0_2 (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1024x1 .f32) (harg3 : arg3.IsWhole) (arg4 : Memref sig .tc .vmem S1024x1 .f32) (harg4 : arg4.IsWhole)
    (x0 : Vec F S1024x256 .f32) (x1 : Vec F S8192x256 .f32) : Vec F S1024x1 .f32 :=
  VO0_2.read (Elt F) (VO0_2.writes (Elt F) VO0_2.junk (kernelRun0 c i arg1 harg1 arg2 harg2 arg3 harg3 arg4 harg4 x0 x1).1)

/-- The output block after the body at point `t`: the body run at the point's memrefs and input blocks. -/
def outAt0 (c : Dev nD) (t : Fin cfg0.N) : Vec F S1024x1 .f32 :=
  out0_2 c (grid0.coords t) (ms0_0 t) (hs0_0 t) (ms0_1 t) (hs0_1 t) (ms0_2 t) (hs0_2 t) scM0_0 (Memref.isWhole_whole _) (iblk m c 0 t) (iblk m c 1 t)

/-! ## The proof data -/

/-- The proof data on core `c`: the arrays as the region finds them; after the body each input's buffer at its block
    and the output's at `outAt0`; the one invariant; nothing owed; the shared array's full share dealt in two halves
    between the two input windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt0 m c t
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks, the invariant hands over the scratch column at
    anything and takes it back at anything, the output block ends at its pieces read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  unfold outAt0 out0_2; (try dsimp only)
  iintro ⟨⟨HS0, Hg⟩, Ho, ⟨%d0, H0⟩, ⟨%d1, H1⟩, ⟨%d2, H2⟩⟩
  iapply ((kernelRun0 c (grid0.coords t) _ _ _ _ _ _ _ _ (iblk m c 0 t) (iblk m c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = Pipeline.ΦA spec0 c from rfl]
  try exact Idealize.SL.BI.Entails.refl _

end Cert.KernelIdeal.Hand

end
-- ==== Proof.KI.Launch.lean ====
/-
  The launch of the kernel region and the frame.

  The normalised rows' array is read through two input windows.  At the region's entry its buffer, whole at the full
  share, is dealt in two halves, one to each window; the output array's buffer goes to the output window whole.  Input
  windows are never written back, so at the region's exit the two halves hold the same contents and join to the full
  share again; the output array holds what the proof data compute after the last point.  The host lines after the
  region then run within all the unscoped buffers.  No host line and no write-back touches an argument array.
-/
import proofs.«123943_j34471407518032_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers behind the windows' arrays -/

/-- The three windows stand on two buffers. -/
theorem arrRefs_eq : Finset.univ.image (Pipeline.arrRef spec0) = [main_v5, main_v6].toFinset := by decide

/-- The distinct buffers behind the arrays, each whole at the full share, one by one. -/
theorem arrBufs_eq (c : Dev nD) (Vb : (b : Ref sig .tc) → Buf (Elt F) ((c : Thread nD τ).loc b)) :
    (Pipeline.arrBufs (Ix := Unit) (Name := ℕ) (U := UR sig nD τ) (Lvl := ℕ) spec0 c Vb : sProp 𝕄)
      = iprop((((c : Thread nD τ).loc main_v5) ↦{fullShare} Vb main_v5) ∗ (((c : Thread nD τ).loc main_v6) ↦{fullShare} Vb main_v6)) := by
  unfold Pipeline.arrBufs
  rw [bigSep_eq_bigSepL_of_eq [main_v5, main_v6] arrRefs_eq (by decide)]
  rfl

/-- The windows' holdings one by one: the shared array's two halves, the output array whole. -/
theorem arrays_eq3 (c : Dev nD) (Fw : (w : Fin cfg0.W) → Buf (Elt F) ((cfg0.win w).arr.view.loc (c : Thread nD τ))) :
    ((dats m 0 c).arrays Fw : sProp 𝕄)
      = iprop((((c : Thread nD τ).loc main_v5) ↦{fullShare.left} Fw 0) ∗ (((c : Thread nD τ).loc main_v5) ↦{fullShare.right} Fw 1)
          ∗ (((c : Thread nD τ).loc main_v6) ↦{fullShare} Fw 2)) := by
  unfold Dat.arrays
  rw [bigSep_W0, (arr_whole0 0).set_eq_univ, (arr_whole0 2).set_eq_univ]
  rfl

/-- Input windows are never written back: the shared array holds its entry contents at every point. -/
theorem arrAt0_0 (c : Dev nD) (n : ℕ) : (dats m 0 c).arrAt 0 n = V m c main_v5 :=
  ((dats m 0 c).arrAt_in 0 rfl n).trans (A_eq m c 0)
theorem arrAt0_1 (c : Dev nD) (n : ℕ) : (dats m 0 c).arrAt 1 n = V m c main_v5 :=
  ((dats m 0 c).arrAt_in 1 rfl n).trans (A_eq m c 1)
theorem arrAt0_2_zero (c : Dev nD) : (dats m 0 c).arrAt 2 0 = V m c main_v6 := A_eq m c 2

/-- The contents of core `c`'s unscoped buffers at the region's exit: the entry contents, the output array at what the
    proof data compute after the last point. -/
def W0 (c : Dev nD) : Valuation τ sig (Elt F) :=
  Function.update (V0 m c) (Proc.devRef .tc main_v6) ((dats m 0 c).arrAt 2 cfg0.N)

theorem W0_v6 (c : Dev nD) : W0 m c (Proc.devRef .tc main_v6) = (dats m 0 c).arrAt 2 cfg0.N := by
  unfold W0; exact Function.update_self ..

theorem W0_of_ne (c : Dev nD) (b : Ref sig .tc) (hb : b ≠ main_v6) : W0 m c (Proc.devRef .tc b) = V0 m c (Proc.devRef .tc b) := by
  unfold W0; exact Function.update_of_ne (StableHlo.devRef_ne_of_ne hb) ..

/-- ENTRY: the shared array's buffer is dealt in two halves. -/
theorem hsplit0 (c : Dev nD) :
    (Pipeline.arrBufs (Ix := Unit) (Name := ℕ) (U := UR sig nD τ) (Lvl := ℕ) spec0 c (fun b => V0 m c (Proc.devRef .tc b)) : sProp 𝕄)
      ⊢ (dats m 0 c).arrays ((dats m 0 c).arrAt · 0) := by
  rw [arrBufs_eq, arrays_eq3, arrAt0_0, arrAt0_1, arrAt0_2_zero]
  iintro ⟨H5, H6⟩
  ihave H := (pointsTo_share (PosShare.mem_left_op_right fullShare)).1 $$ H5
  icases H with ⟨HL, HR⟩
  isplitl [HL]; · iexact HL
  isplitl [HR]; · iexact HR
  iexact H6

/-- EXIT: the two halves join. -/
theorem hjoinN (c : Dev nD) :
    (dats m 0 c).arrays ((dats m 0 c).arrAt · cfg0.N)
      ⊢ (Pipeline.arrBufs (Ix := Unit) (Name := ℕ) (U := UR sig nD τ) (Lvl := ℕ) spec0 c (fun b => W0 m c (Proc.devRef .tc b)) : sProp 𝕄) := by
  rw [arrBufs_eq, arrays_eq3, arrAt0_0, arrAt0_1, W0_v6, W0_of_ne m c main_v5 (by decide)]
  iintro ⟨HL, HR, H6⟩
  isplitl [HL HR]
  · iapply (pointsTo_share (PosShare.mem_left_op_right fullShare)).2
    isplitl [HL] <;> iassumption
  iexact H6

/-- And are dealt again for the final reading. -/
theorem hsplitN (c : Dev nD) :
    (Pipeline.arrBufs (Ix := Unit) (Name := ℕ) (U := UR sig nD τ) (Lvl := ℕ) spec0 c (fun b => W0 m c (Proc.devRef .tc b)) : sProp 𝕄)
      ⊢ (dats m 0 c).arrays ((dats m 0 c).arrAt · cfg0.N) := by
  rw [arrBufs_eq, arrays_eq3, arrAt0_0, arrAt0_1, W0_v6, W0_of_ne m c main_v5 (by decide)]
  iintro ⟨H5, H6⟩
  ihave H := (pointsTo_share (PosShare.mem_left_op_right fullShare)).1 $$ H5
  icases H with ⟨HL, HR⟩
  isplitl [HL]; · iexact HL
  isplitl [HR]; · iexact HR
  iexact H6

/-! ## The lines after the region -/

theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- They write no array of the pipeline: each writes only its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The run and the frame -/

set_option backward.isDefEq.respectTransparency.types false in
/-- From any memory with zero counters every weakly fair execution of @main terminates, every array of the pipeline
    ends at what the proof data compute and every other unscoped buffer at what the later host lines leave. -/
theorem run_main : θ_run defs (onTc (τ := τ) (main (F := F))) (s₀ m ρ)
    (Pipeline.FramePost cfgs (dats m) 0 (fun c b => StableHlo.after (List.flatten [hostOps1]) (W0 m c) (Proc.devRef .tc b))) :=
  Pipeline.θ_run_frame_around_shared cfgs (dats m) (0 : Fin 1) defs₀ Variants.none winFacts₀0 cellOf_inj block_pos0 arr_whole0 stage_whole0
    m ρ main (hbody := fun c => (body_obligation m c).loose) (howed := fun _ _ => rfl)
    (V₀ := V0 m) (W₀ := W0 m) (opss := [hostOps1]) (hsub := sfx_sub) (hfresh := sfx_fresh) (hkeep := sfx_keeps)
    (hmain := hmain m Variants.none)
    (hW := fun c b hb => W0_of_ne m c b (fun e => hb 2 e.symm))
    (hsplit0 := hsplit0 m) (hjoinN := hjoinN m) (hsplitN := hsplitN m) (hin := hin m) (hout := hout m)

/-- No host line after the region writes an argument. -/
theorem tail_keeps (Wv : Valuation τ sig (Elt F)) (b : Ref sig .tc) (hb : b = main_arg0 ∨ b = main_arg1 ∨ b = main_arg2) :
    StableHlo.after (List.flatten [hostOps1 (F := F)]) Wv (Proc.devRef .tc b) = Wv (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    rcases hb with rfl | rfl | rfl
    all_goals repeat' apply And.intro
    all_goals exact StableHlo.devRef_ne_of_ne (by decide)))

/-- THE FRAME: every weakly fair execution terminates, nothing faulting, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans
        ((tail_keeps _ main_arg0 (.inl rfl)).trans ((W0_of_ne m c main_arg0 (by decide)).trans (V_main_arg0 m c))),
      ((h c).2 main_arg1 (Pipeline.mem_restRefs_of main_arg1 (by decide) (by decide))).trans
        ((tail_keeps _ main_arg1 (.inr (.inl rfl))).trans ((W0_of_ne m c main_arg1 (by decide)).trans (V_main_arg1 m c))),
      ((h c).2 main_arg2 (Pipeline.mem_restRefs_of main_arg2 (by decide) (by decide))).trans
        ((tail_keeps _ main_arg2 (.inr (.inr rfl))).trans ((W0_of_ne m c main_arg2 (by decide)).trans (V_main_arg2 m c)))⟩) (run_main m ρ)

end Cert.KernelIdeal.Hand

end
-- ==== Proof.KI.Chunk.lean ====
/-
  One column chunk of the kernel body as one function.

  For a row tile `a` (1024 rows) and a chunk `b` of 512 rows of the resident operand, the body forms the 1024×512 products
  `a · bᵀ`, scales them by two, exponentiates, replaces by zero the entries whose global row number (tile offset plus row)
  equals their global column number (chunk offset plus column), sums each row over the chunk's columns, and adds the sums
  to the running column `acc`.  The body repeats this sixteen times, the chunk offset advancing by 512.
-/
import proofs.«123943_j34471407518032_2_alg».proof.KernelIdeal

noncomputable section

namespace Cert.KernelIdeal.KValue

open Cert.KernelIdeal Idealize.ShloMosaic
open Facts₀ Facts

variable {F : FTy → Type} [FloatOps F] [Facts]

/-- The running column after one more chunk: `acc + Σ_j mask · exp (2 · a · bᵀ)`, the tile at grid coordinate `arg0`,
    the chunk at column offset `K`. -/
noncomputable def chunkStep (arg0 K : BitVec 32) (a : FVec F S1024x256 .f32) (b : Vec F S512x256 .f32) (acc : Vec F S1024x1 .f32) :
    FVec F S1024x1 .f32 :=
  shapeCast S1024x1 (addf acc (shapeCast S1024x1 (multiReduction .add [1] S1024
    (select (cmpi .eq (addi (broadcast S1024x512 (Scalar.muli arg0 1024#32)) (iota .tc S1024x512 32 [0] iota_S1024x512_d0_w32))
        (addi (broadcast S1024x512 K) (iota .tc S1024x512 32 [1] iota_S1024x512_d1_w32)))
      (broadcast S1024x512 (Scalar.ofBits .f32 0x00000000#32))
      (exp (mulf (matmul dot_S1024x256_S512x256_S1024x512_1_1_0_0_n_n (some .fp32) a (shapeCast S512x256 b shapeCasts_S512x256_S512x256)
        (constant S1024x512 .f32 0x00000000#32)) (broadcast S1024x512 (Scalar.ofBits .f32 0x40000000#32)))))
    0x00000000#32 reduces_S1024x512_S1024 (.inl rfl) rfl) shapeCasts_S1024_S1024x1)) shapeCasts_S1024x1_S1024x1

/-- The column of zeros the body starts from. -/
noncomputable def zeroCol : FVec F S1024x1 .f32 :=
  shapeCast S1024x1 (broadcast S1024x1 (Scalar.ofBits .f32 0x00000000#32)) shapeCasts_S1024x1_S1024x1

end Cert.KernelIdeal.KValue

end
-- ==== Proof.KI.Col.lean ====
/-
  The scratch column after the sixteen chunks.

  The body starts from the column of zeros and adds, chunk after chunk, the masked row sums of `exp (2 · a · bᵀ)` over the
  chunk's 512 columns; the chunk at column offset `K` is rows `K … K + 511` of the resident operand `x1`.
-/
import proofs.«123943_j34471407518032_2_alg».proof.Proof.KI.Chunk
import Idealize.ShloMosaic.Lib.Pipeline.Value

noncomputable section

namespace Cert.KernelIdeal.KValue

open Cert.KernelIdeal Idealize.ShloMosaic
open Facts₀ Facts

variable {F : FTy → Type} [FloatOps F] [Facts]

/-- The running column after all sixteen chunks, of the row tile `a` and the resident operand `x1`. -/
noncomputable def colAfter (arg0 : BitVec 32) (a : FVec F S1024x256 .f32) (x1 : Vec F S8192x256 .f32) : FVec F S1024x1 .f32 :=
  chunkStep arg0 7680#32 a (View.ld x1 (Rect.unit (s := S8192x256) ![7680, 0] S512x256.size inb_S8192x256_S512x256_7680_0))
    (chunkStep arg0 7168#32 a (View.ld x1 (Rect.unit (s := S8192x256) ![7168, 0] S512x256.size inb_S8192x256_S512x256_7168_0))
    (chunkStep arg0 6656#32 a (View.ld x1 (Rect.unit (s := S8192x256) ![6656, 0] S512x256.size inb_S8192x256_S512x256_6656_0))
    (chunkStep arg0 6144#32 a (View.ld x1 (Rect.unit (s := S8192x256) ![6144, 0] S512x256.size inb_S8192x256_S512x256_6144_0))
    (chunkStep arg0 5632#32 a (View.ld x1 (Rect.unit (s := S8192x256) ![5632, 0] S512x256.size inb_S8192x256_S512x256_5632_0))
    (chunkStep arg0 5120#32 a (View.ld x1 (Rect.unit (s := S8192x256) ![5120, 0] S512x256.size inb_S8192x256_S512x256_5120_0))
    (chunkStep arg0 4608#32 a (View.ld x1 (Rect.unit (s := S8192x256) ![4608, 0] S512x256.size inb_S8192x256_S512x256_4608_0))
    (chunkStep arg0 4096#32 a (View.ld x1 (Rect.unit (s := S8192x256) ![4096, 0] S512x256.size inb_S8192x256_S512x256_4096_0))
    (chunkStep arg0 3584#32 a (View.ld x1 (Rect.unit (s := S8192x256) ![3584, 0] S512x256.size inb_S8192x256_S512x256_3584_0))
    (chunkStep arg0 3072#32 a (View.ld x1 (Rect.unit (s := S8192x256) ![3072, 0] S512x256.size inb_S8192x256_S512x256_3072_0))
    (chunkStep arg0 2560#32 a (View.ld x1 (Rect.unit (s := S8192x256) ![2560, 0] S512x256.size inb_S8192x256_S512x256_2560_0))
    (chunkStep arg0 2048#32 a (View.ld x1 (Rect.unit (s := S8192x256) ![2048, 0] S512x256.size inb_S8192x256_S512x256_2048_0))
    (chunkStep arg0 1536#32 a (View.ld x1 (Rect.unit (s := S8192x256) ![1536, 0] S512x256.size inb_S8192x256_S512x256_1536_0))
    (chunkStep arg0 1024#32 a (View.ld x1 (Rect.unit (s := S8192x256) ![1024, 0] S512x256.size inb_S8192x256_S512x256_1024_0))
    (chunkStep arg0 512#32 a (View.ld x1 (Rect.unit (s := S8192x256) ![512, 0] S512x256.size inb_S8192x256_S512x256_512_0))
    (chunkStep arg0 0#32 a (View.ld x1 (Rect.unit (s := S8192x256) ![0, 0] S512x256.size inb_S8192x256_S512x256_0_0))
    (zeroCol))))))))))))))))

end Cert.KernelIdeal.KValue

end
-- ==== Proof.KI.OutValue.lean ====
/-
  What the body leaves in the output block, as one function of the two input blocks.

  The output block is stored once, at the body's end, with the scratch column read back.  Every store of the scratch column
  covers it whole, so what a later load of it reads is the newest store's payload; unwinding the seventeen stores gives
  the column of zeros followed by the sixteen chunk steps.
-/
import proofs.«123943_j34471407518032_2_alg».proof.Proof.KI.Data
import proofs.«123943_j34471407518032_2_alg».proof.Proof.KI.Col

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.KValue

theorem hz2 : (![0, 0] : Fin 2 → Nat) = fun _ => 0 := funext fun a => by fin_cases a <;> rfl

/-- A load of the whole buffer after a list of stores whose NEWEST covers it whole reads that store's payload. -/
theorem readCov_cons_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

set_option maxHeartbeats 4000000 in
/-- The output block after the body: the column of zeros after the sixteen chunk steps, of the row tile and the
    resident operand as loaded. -/
theorem out0_2_eq (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1024x1 .f32) (harg3 : arg3.IsWhole) (arg4 : Memref sig .tc .vmem S1024x1 .f32) (harg4 : arg4.IsWhole)
    (x0 : Vec F S1024x256 .f32) (x1 : Vec F S8192x256 .f32) :
    out0_2 c i arg1 harg1 arg2 harg2 arg3 harg3 arg4 harg4 x0 x1 = colAfter (BitVec.ofNat 32 (i 0).val) (k0_pay2 x0) x1 := by
  unfold out0_2
  rw [View.read_writes_eq_canon _ _ _ (cover0_2 c i arg1 harg1 arg2 harg2 arg3 harg3 arg4 harg4 x0 x1)]
  unfold kernelRun0
  dsimp only
  sl_unfold_words
  rw [View.canon_unit_zero hz2]
  simp only [readCov_cons_whole (S := S1024x1) (off := ![0, 0]) _ hz2, View.readAt_eq_ld, harg1.read_unread, harg2.read_unread, View.ld_unit_zero (S := S1024x256) hz2]
  rfl

end Cert.KernelIdeal.Hand

end
-- ==== Proof.KI.Blocks.lean ====
/-
  From blocks to arrays for the kernel region.

  The output window's blocks are the eight groups of 1024 rows of the column the region writes, and every grid point
  writes its block back; so after the region row `r` of the column holds what point `r / 1024` left at row
  `r % 1024` of its block.  Input window 0's block at point `t` is rows `1024 t … 1024 t + 1023` of the normalised
  array, input window 1's block is the whole array.
-/
import proofs.«123943_j34471407518032_2_alg».proof.Proof.KI.Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The windows' block index maps over the grid: window 0 and the output window move one block of rows per point,
    window 1 stays at the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid point whose output block holds row `r`. -/
def pointOf (r : Nat) (h : r < 8192) : Fin cfg0.N := ⟨r / 1024, Nat.lt_of_lt_of_eq (by omega) N_0.symm⟩

/-- The column the region leaves, as one function of the row: what the row's point left at the row's place in its
    block. -/
def outCol (c : Dev nD) : S8192x1.Idx → Elt F .f32 := fun i =>
  outAt0 m c (pointOf (i 0).val (i 0).isLt)
    (ValueIdx.ix2 (⟨(i 0).val % 1024, Nat.mod_lt _ (by decide)⟩ : Fin 1024) (0 : Fin 1))

/-- What point `t` writes back is block `t` of that column. -/
theorem flushed_out_eq (c : Dev nD) (t : Fin cfg0.N) :
    (dats m 0 c).flushed 2 t = ((cfg0.win 2).blk t).view.read (Elt F) (outCol m c) := by
  show (cfg0.win 2).cut (grid0.coords t) ((dats m 0 c).after 2 t) = _
  rw [after0_2]
  obtain ⟨-, -, -, -, e4, e5⟩ := idx_facts t
  funext y
  have hy0 : (y 0).val < 1024 := (y 0).isLt
  have hy1 : (y 1).val < 1 := (y 1).isLt
  have hv : ((((cfg0.win 2).blk t).view.emb y) 0).val = t.val * 1024 + (y 0).val := by
    show win0_2.index t (0 : Fin 2) * 1024 + 1 * (y 0).val = _
    omega
  show outAt0 m c t y = outAt0 m c (pointOf ((((cfg0.win 2).blk t).view.emb y) 0).val _)
    (ValueIdx.ix2 (⟨((((cfg0.win 2).blk t).view.emb y) 0).val % 1024, _⟩ : Fin 1024) (0 : Fin 1))
  have ht : pointOf ((((cfg0.win 2).blk t).view.emb y) 0).val ((((cfg0.win 2).blk t).view.emb y) 0).isLt = t :=
    Fin.ext (by show ((((cfg0.win 2).blk t).view.emb y) 0).val / 1024 = t.val; omega)
  have hyy : (ValueIdx.ix2 (⟨((((cfg0.win 2).blk t).view.emb y) 0).val % 1024, Nat.mod_lt _ (by decide)⟩ : Fin 1024) (0 : Fin 1) : S1024x1.Idx) = y :=
    funext fun a => Fin.ext (by
      match a with
      | ⟨0, _⟩ => show ((((cfg0.win 2).blk t).view.emb y) 0).val % 1024 = (y 0).val; omega
      | ⟨1, _⟩ => show 0 = (y 1).val; omega)
  rw [ht, hyy]

/-- A row of the column is in point `t`'s block iff each coordinate is in the block's range on its axis. -/
theorem mem_blk_out (t : Fin cfg0.N) (i : S8192x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v6).slice (win0_2.rect t)).set ↔ _
  rw [View.set_slice_whole, Rect.mem_set_unit]
  exact Iff.rfl

/-- Every row of the column is in the block of its point, which writes its block back. -/
theorem cover_out (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  refine ⟨pointOf (i 0).val hi0, flush0_2 _, ?_⟩
  rw [mem_blk_out]
  obtain ⟨-, -, -, -, e4, e5⟩ := idx_facts (pointOf (i 0).val hi0)
  have e4' : win0_2.index (pointOf (i 0).val hi0) (0 : Fin 2) = (i 0).val / 1024 := e4
  intro a
  match a with
  | ⟨0, _⟩ =>
    show win0_2.index (pointOf (i 0).val hi0) (0 : Fin 2) * 1024 ≤ (i 0).val
      ∧ (i 0).val < win0_2.index (pointOf (i 0).val hi0) (0 : Fin 2) * 1024 + 1024
    omega
  | ⟨1, _⟩ =>
    show win0_2.index (pointOf (i 0).val hi0) (1 : Fin 2) * 1 ≤ (i 1).val
      ∧ (i 1).val < win0_2.index (pointOf (i 0).val hi0) (1 : Fin 2) * 1 + 1
    omega

/-- The column after the region is that function of the row. -/
theorem final_col (c : Dev nD) : (dats m 0 c).arrAt 2 cfg0.N = outCol m c :=
  (dats m 0 c).arrAt_eq_of_cover 2 (outCol m c) (fun t _ => flushed_out_eq m c t) cover_out

/-- Row `r` of the column after the region: what point `r / 1024` left at row `r % 1024` of its block. -/
theorem final_out (c : Dev nD) (r : Fin 8192) :
    (dats m 0 c).arrAt 2 cfg0.N (ValueIdx.ix2 r (0 : Fin 1))
      = outAt0 m c (⟨r.val / 1024, Nat.lt_of_lt_of_eq (by have := r.isLt; omega) N_0.symm⟩ : Fin cfg0.N)
          (ValueIdx.ix2 (⟨r.val % 1024, Nat.mod_lt _ (by decide)⟩ : Fin 1024) (0 : Fin 1)) :=
  congrFun (final_col m c) (ValueIdx.ix2 r (0 : Fin 1))

/-! ### The input windows' blocks at an index -/

/-- Window 0's block at point `t`, at row `p` and column `d`: row `1024 t + p` of the normalised array. -/
theorem iblk0_apply (c : Dev nD) (t : Fin cfg0.N) (p : Fin 1024) (d : Fin 256) :
    (iblk m c 0 t : Vec F S1024x256 .f32) (ValueIdx.ix2 p d)
      = (V m c main_v5 : S8192x256.Idx → Elt F .f32)
          (ValueIdx.ix2 (⟨t.val * 1024 + p.val, by
            have hN : cfg0.N = 8 := N_0
            have := t.isLt; have := p.isLt; omega⟩ : Fin 8192) d) := by
  obtain ⟨e0, e1, -, -, -, -⟩ := idx_facts t
  unfold iblk
  rw [View.read_apply]
  show V m c main_v5 _ = V m c main_v5 _
  congr 1
  funext a
  apply Fin.ext
  match a with
  | ⟨0, _⟩ => show win0_0.index t (0 : Fin 2) * 1024 + 1 * p.val = t.val * 1024 + p.val; omega
  | ⟨1, _⟩ => show win0_0.index t (1 : Fin 2) * 256 + 1 * d.val = d.val; omega

/-- Window 1's block at any point is the whole normalised array. -/
theorem iblk1_apply (c : Dev nD) (t : Fin cfg0.N) (r : Fin 8192) (d : Fin 256) :
    (iblk m c 1 t : Vec F S8192x256 .f32) (ValueIdx.ix2 r d)
      = (V m c main_v5 : S8192x256.Idx → Elt F .f32) (ValueIdx.ix2 r d) := by
  obtain ⟨-, -, e2, e3, -, -⟩ := idx_facts t
  unfold iblk
  rw [View.read_apply]
  show V m c main_v5 _ = V m c main_v5 _
  congr 1
  funext a
  apply Fin.ext
  match a with
  | ⟨0, _⟩ => show win0_1.index t (0 : Fin 2) * 8192 + 1 * r.val = r.val; omega
  | ⟨1, _⟩ => show win0_1.index t (1 : Fin 2) * 256 + 1 * d.val = d.val; omega

end Cert.KernelIdeal.Hand

end
-- ==== Proof.Spec.lean ====
/-
  The mathematics both programs compute, over plain index types.

  An array of 8192 rows of 256 extended reals, `y`, stands for the normalised embeddings.  Row `r` and row `c` have
  the similarity `sim y r c = Σ_d y r d · y c d`; row `r`'s positive partner is the row 4096 further on, cyclically.
  One program forms the row's denominator by SELECTING zero on the diagonal and scaling the similarity by the
  PRODUCT with two, and the row's loss as `log denominator − positive / ½`; the other forms it by MULTIPLYING with
  `1 − [c = r]`, scaling by the QUOTIENT by one half, and the row's loss as `−log (exp (positive / ½) / denominator)`.
-/
import Idealize.ShloMosaic.PureOps.Ideal
import Idealize.ShloMosaic.Lib.ValueIdx

noncomputable section

namespace Cert.Spec

open Idealize.ShloMosaic

/-- 8192 rows of 256 extended reals. -/
abbrev Rows := Fin 8192 → Fin 256 → EReal

/-- The binary words of 2, 1/2 and 10⁻⁸ (rounded to single precision) as extended reals. -/
def two : EReal := Ideal.ofBits .f32 0x40000000#32
def half : EReal := Ideal.ofBits .f32 0x3F000000#32
def eps : EReal := Ideal.ofBits .f32 0x322BCC77#32

/-- Two blocks of 4096 rows stacked. -/
def stack (a b : Fin 4096 → Fin 256 → EReal) : Rows :=
  fun r d => if h : r.val < 4096 then a ⟨r.val, h⟩ d else b ⟨r.val - 4096, by omega⟩ d

/-- A row's Euclidean norm, clamped below by `eps`. -/
def norm (z : Rows) (r : Fin 8192) : EReal := max (Ideal.sqrt (∑ d : Fin 256, z r d * z r d)) eps

/-- Every row divided by its clamped norm. -/
def normalize (z : Rows) : Rows := fun r d => Ideal.div (z r d) (norm z r)

/-- The similarity of two rows. -/
def sim (y : Rows) (r c : Fin 8192) : EReal := ∑ d : Fin 256, y r d * y c d

/-- The row 4096 further on, cyclically. -/
def partner (r : Fin 8192) : Fin 8192 := ⟨(r.val + 4096) % 8192, Nat.mod_lt _ (by norm_num)⟩

/-- The denominator by selection: zero on the diagonal, `exp (2 · sim)` off it. -/
def denomSel (y : Rows) (r : Fin 8192) : EReal :=
  ∑ c : Fin 8192, if c = r then (0 : EReal) else Ideal.exp (sim y r c * two)

/-- The loss of a row as `log denominator − positive / ½`. -/
def lossSel (y : Rows) (r : Fin 8192) : EReal :=
  Ideal.log (denomSel y r) - Ideal.div (sim y r (partner r)) half

/-- The denominator by a mask: `(1 − [c = r]) · exp (sim / ½)`. -/
def denomMask (y : Rows) (r : Fin 8192) : EReal :=
  ∑ c : Fin 8192, ((1 : EReal) - (if c = r then (1 : EReal) else 0)) * Ideal.exp (Ideal.div (sim y r c) half)

/-- The loss of a row as `−log (exp (positive / ½) / denominator)`. -/
def lossMask (y : Rows) (r : Fin 8192) : EReal :=
  - Ideal.log (Ideal.div (Ideal.exp (Ideal.div (sim y r (partner r)) half)) (denomMask y r))

end Cert.Spec

end
-- ==== Proof.KI.ChunkApply.lean ====
/-
  One column chunk of the kernel body read at an index, at the ideal values.

  Row `p` of the running column after one more chunk is the old entry plus the sum, over the chunk's 512 columns `j`,
  of zero where the global row number (tile offset plus `p`) equals the global column number (chunk offset plus `j`),
  and of `exp (2 · Σ_d a p d · b j d)` elsewhere.  Each non-pointwise operation is read at an index by one small lemma:
  the column cast of a vector, the row sum, the product `a · bᵀ`, and the two coordinate counters.
-/
import proofs.«123943_j34471407518032_2_alg».proof.Proof.KI.Chunk
import proofs.«123943_j34471407518032_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KValue

open Cert.KernelIdeal Idealize.ShloMosaic Idealize.ShloMosaic.ValueIdx
open Cert.KernelIdeal.Facts₀ Cert.KernelIdeal.Facts

variable [Cert.KernelIdeal.Facts]

/-! ## The layout operations at an index -/

/-- A vector of 1024 entries cast to a column reads, at `(p, u)`, the vector at `p`. -/
theorem colCast_apply {α : Type} (x : S1024.Idx → α) (h : S1024.ShapeCasts S1024x1) (p : Fin 1024) (u : Fin 1) :
    shapeCast S1024x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The row sum at an index -/

/-- The sum over the columns of a 1024×512 block, read at row `p`, is the sum over `j` of the block at `(p, j)`. -/
theorem rowSum_apply (src : FVec Ideal S1024x512 .f32) (hφ : FKind.Formats .f32)
    (hacc : (0x00000000#32 : BitVec 32) = 0x00000000#32) (p : Fin 1024) :
    multiReduction .add [1] S1024 src 0x00000000#32 reduces_S1024x512_S1024 hφ hacc (ix1 p)
      = ∑ j : Fin 512, src (ix2 p j) :=
  (Ideal.multiReduction_add_single src 0x00000000#32 reduces_S1024x512_S1024 hφ hacc (ix1 p)).trans
    (Finset.sum_congr rfl fun j _ => congrArg src (funext fun c => Fin.ext (by
      match c with
      | ⟨0, _⟩ => rfl
      | ⟨1, _⟩ => rfl)))

/-! ## The coordinate counters at an index -/

/-- The row counter at `(p, j)` is the word of `p`. -/
theorem iotaRow_apply (p : Fin 1024) (j : Fin 512) :
    iota .tc S1024x512 32 [0] iota_S1024x512_d0_w32 (ix2 p j) = BitVec.ofNat 32 p.val := by
  show BitVec.ofNat 32 (0 * 1024 + p.val) = _
  rw [Nat.zero_mul, Nat.zero_add]

/-- The column counter at `(p, j)` is the word of `j`. -/
theorem iotaCol_apply (p : Fin 1024) (j : Fin 512) :
    iota .tc S1024x512 32 [1] iota_S1024x512_d1_w32 (ix2 p j) = BitVec.ofNat 32 j.val := by
  show BitVec.ofNat 32 (0 * 512 + j.val) = _
  rw [Nat.zero_mul, Nat.zero_add]

/-- A select on the equality of two words is the `if` on their equality. -/
theorem select_cmpi_eq {α : Type} (x y : BitVec 32) (A B : α) :
    Scalar.select (IntOp.cmpi .eq x y) A B = if x = y then A else B := by
  unfold Scalar.select IntOp.cmpi
  by_cases h : x = y
  · subst h; simp
  · have hb : (x == y) = false := beq_eq_false_iff_ne.mpr h
    simp [hb, h]

/-! ## The product `a · bᵀ` at an index -/

theorem dotLhs_0 (i : S1024x512.Idx) (q : dot_S1024x256_S512x256_S1024x512_1_1_0_0_n_n.contr.Idx) :
    (dot_S1024x256_S512x256_S1024x512_1_1_0_0_n_n.lhsIdx i q 0).val = (i 0).val := by
  unfold DotDims.lhsIdx
  rw [dif_neg (show ¬(0 : Fin S1024x256.rank) ∈ dot_S1024x256_S512x256_S1024x512_1_1_0_0_n_n.lhsBatch from List.not_mem_nil),
    dif_pos (show (0 : Fin S1024x256.rank) ∈ dot_S1024x256_S512x256_S1024x512_1_1_0_0_n_n.lhsNonContracting from List.mem_singleton.mpr rfl)]
  rfl
theorem dotRhs_0 (i : S1024x512.Idx) (q : dot_S1024x256_S512x256_S1024x512_1_1_0_0_n_n.contr.Idx) :
    (dot_S1024x256_S512x256_S1024x512_1_1_0_0_n_n.rhsIdx i q 0).val = (i 1).val := by
  unfold DotDims.rhsIdx
  rw [dif_neg (show ¬(0 : Fin S512x256.rank) ∈ dot_S1024x256_S512x256_S1024x512_1_1_0_0_n_n.rhsBatch from List.not_mem_nil),
    dif_pos (show (0 : Fin S512x256.rank) ∈ dot_S1024x256_S512x256_S1024x512_1_1_0_0_n_n.rhsNonContracting from List.mem_singleton.mpr rfl)]
  rfl

/-- The product of a 1024×256 tile with the transpose of a 512×256 chunk, into the zero block, read at `(p, j)`:
    the sum over `d` of `a p d · b j d`. -/
theorem matmul_apply_ix (prec : Option ContractPrecision) (a : FVec Ideal S1024x256 .f32) (b : FVec Ideal S512x256 .f32)
    (p : Fin 1024) (j : Fin 512) :
    matmul dot_S1024x256_S512x256_S1024x512_1_1_0_0_n_n prec a b (constant (F := Ideal) S1024x512 .f32 0x00000000#32) (ix2 p j)
      = ∑ d : Fin 256, a (ix2 p d) * b (ix2 j d) := by
  simp only [matmul]
  rw [Ideal.matmul_constant_zero_apply, ← Equiv.sum_comp (ValueIdx.contrEquiv1 dot_S1024x256_S512x256_S1024x512_1_1_0_0_n_n 256 rfl rfl).symm]
  refine Finset.sum_congr rfl fun k _ => ?_
  have hk := ValueIdx.contrEquiv1_symm_val dot_S1024x256_S512x256_S1024x512_1_1_0_0_n_n 256 rfl rfl k
  have el : dot_S1024x256_S512x256_S1024x512_1_1_0_0_n_n.lhsIdx (ix2 p j) ((ValueIdx.contrEquiv1 dot_S1024x256_S512x256_S1024x512_1_1_0_0_n_n 256 rfl rfl).symm k) = ix2 p k := funext fun c => Fin.ext (by
    match c with
    | ⟨0, _⟩ => exact dotLhs_0 _ _
    | ⟨1, _⟩ => exact (dot_S1024x256_S512x256_S1024x512_1_1_0_0_n_n.lhsIdx_val_of_single rfl _ _).trans hk)
  have er : dot_S1024x256_S512x256_S1024x512_1_1_0_0_n_n.rhsIdx (ix2 p j) ((ValueIdx.contrEquiv1 dot_S1024x256_S512x256_S1024x512_1_1_0_0_n_n 256 rfl rfl).symm k) = ix2 j k := funext fun c => Fin.ext (by
    match c with
    | ⟨0, _⟩ => exact dotRhs_0 _ _
    | ⟨1, _⟩ => exact (dot_S1024x256_S512x256_S1024x512_1_1_0_0_n_n.rhsIdx_val_of_single rfl _ _).trans hk)
  rw [el, er]

/-! ## The chunk at an index -/

/-- Row `p` of the running column after one more chunk. -/
theorem chunkStep_apply (arg0 K : BitVec 32) (a : FVec Ideal S1024x256 .f32) (b : Vec Ideal S512x256 .f32)
    (acc : Vec Ideal S1024x1 .f32) (p : Fin 1024) :
    chunkStep (F := Ideal) arg0 K a b acc (ix2 p (0 : Fin 1))
      = acc (ix2 p 0) + ∑ j : Fin 512, (if arg0 * 1024#32 + BitVec.ofNat 32 p.val = K + BitVec.ofNat 32 j.val then (0 : EReal)
          else Ideal.exp ((∑ d : Fin 256, a (ix2 p d) * b (ix2 j d)) * Cert.Spec.two)) := by
  unfold chunkStep
  rw [shapeCast_self, addf_apply, colCast_apply]
  refine congrArg (acc (ix2 p 0) + ·) ?_
  refine (rowSum_apply _ _ _ p).trans (Finset.sum_congr rfl fun j _ => ?_)
  rw [select_apply, cmpi, addi, addi]
  rw [iotaRow_apply, iotaCol_apply, select_cmpi_eq, broadcast_apply, broadcast_apply, broadcast_apply]
  rw [show exp (mulf (matmul dot_S1024x256_S512x256_S1024x512_1_1_0_0_n_n (some ContractPrecision.fp32) a (shapeCast S512x256 b shapeCasts_S512x256_S512x256)
          (constant (F := Ideal) S1024x512 FTy.f32 0x00000000#32)) (broadcast S1024x512 (FloatOps.ofBits (F := Ideal) FTy.f32 0x40000000#32))) (ix2 p j)
        = Ideal.exp (matmul dot_S1024x256_S512x256_S1024x512_1_1_0_0_n_n (some ContractPrecision.fp32) a (shapeCast S512x256 b shapeCasts_S512x256_S512x256)
          (constant (F := Ideal) S1024x512 FTy.f32 0x00000000#32) (ix2 p j) * Cert.Spec.two) from rfl]
  rw [shapeCast_self, matmul_apply_ix]
  rw [show FloatOps.ofBits (F := Ideal) FTy.f32 0x00000000#32 = (0 : EReal) from Ideal.ofBits_zero_f32]
  rfl

/-- The column the body starts from is zero everywhere. -/
theorem zeroCol_apply (y : S1024x1.Idx) : zeroCol (F := Ideal) y = 0 := by
  unfold zeroCol
  rw [shapeCast_self]
  exact Ideal.ofBits_zero_f32

end Cert.KernelIdeal.KValue

end
-- ==== Proof.LibBlockSum.lean ====
/-
  Regrouping a long sum into consecutive blocks.

  A sum over `a * b` consecutive indices is the sum, over the `a` blocks, of the sum over the `b`
  indices inside each block: index `k` of the long sum is `j + b * i` for block `i` and offset `j`.
  Only commutativity and associativity of addition are used, so the law holds in every commutative
  additive monoid — in particular on the extended reals, infinities included.
-/
import Idealize.ShloMosaic.PureOps.Ideal

namespace Cert.BlockSum

open BigOperators

/-- The sum over `Fin (a * b)` split into `a` blocks of `b` consecutive terms. -/
theorem sum_blocks {M : Type*} [AddCommMonoid M] (a b : ℕ) (f : Fin (a * b) → M) :
    ∑ k : Fin (a * b), f k = ∑ i : Fin a, ∑ j : Fin b, f (finProdFinEquiv (i, j)) := by
  rw [← finProdFinEquiv.sum_comp, Fintype.sum_prod_type]

/-- The position of offset `j` of block `i` in the long sum. -/
theorem block_index_val (a b : ℕ) (i : Fin a) (j : Fin b) :
    (finProdFinEquiv (i, j) : Fin (a * b)).val = j.val + b * i.val := rfl

/-- The same law for a function of the natural position: the long sum runs over positions `0 … a·b − 1`, block `s`
    holds positions `b·s … b·s + b − 1`, and the blocks are counted by `Finset.range a`. -/
theorem sum_range_blocks {M : Type*} [AddCommMonoid M] (a b : ℕ) (f : ℕ → M) :
    ∑ k : Fin (a * b), f k.val = ∑ s ∈ Finset.range a, ∑ j : Fin b, f (b * s + j.val) := by
  rw [Finset.sum_range, sum_blocks a b (fun k => f k.val)]
  refine Finset.sum_congr rfl fun i _ => Finset.sum_congr rfl fun j _ => ?_
  rw [block_index_val, Nat.add_comm]

/-- 4096 terms as 8 blocks of 512. -/
theorem sum_4096 {M : Type*} [AddCommMonoid M] (f : ℕ → M) :
    ∑ k : Fin 4096, f k.val = ∑ s ∈ Finset.range 8, ∑ j : Fin 512, f (512 * s + j.val) :=
  sum_range_blocks 8 512 f

end Cert.BlockSum
-- ==== Proof.KI.ColApply.lean ====
/-
  The scratch column after the sixteen chunks, read at a row, is the row's denominator by selection.

  Chunk `k` of the resident operand is its rows `512 k … 512 k + 511`; row `p` of tile `t` is global row
  `r = 1024 t + p`.  The chunk adds, over its 512 columns `j`, zero where `512 k + j = r` and
  `exp (2 · Σ_d y r d · y (512 k + j) d)` elsewhere.  The sixteen chunk sums, added to the zero column, are the one sum
  over all 8192 columns regrouped into sixteen blocks of 512 consecutive terms.
-/
import proofs.«123943_j34471407518032_2_alg».proof.Proof.KI.Col
import proofs.«123943_j34471407518032_2_alg».proof.Proof.KI.ChunkApply
import proofs.«123943_j34471407518032_2_alg».proof.Proof.Spec
import proofs.«123943_j34471407518032_2_alg».proof.Proof.LibBlockSum
import Idealize.ShloMosaic.Lib.ValueIdx
import Idealize.ShloMosaic.Lib.Pipeline.Value

noncomputable section

namespace Cert.KernelIdeal.KValue

open Cert.KernelIdeal Idealize.ShloMosaic Idealize.ShloMosaic.ValueIdx
open Cert.KernelIdeal.Facts₀ Cert.KernelIdeal.Facts

variable [Cert.KernelIdeal.Facts]

/-! ## A chunk of the resident operand at an index -/

/-- Rows `K … K + 511` of the resident operand, read at `(j, d)`: the operand at `(K + j, d)`. -/
theorem ld_chunk_apply (x1 : Vec Ideal S8192x256 .f32) (K : Nat)
    (h : ∀ a, (![K, 0] : Fin 2 → Nat) a + S512x256.size a ≤ S8192x256.size a) (hK : K + 512 ≤ 8192)
    (j : Fin 512) (d : Fin 256) :
    View.ld x1 (Rect.unit (s := S8192x256) ![K, 0] S512x256.size h) (ix2 j d)
      = x1 (ix2 (⟨K + j.val, by have := j.isLt; omega⟩ : Fin 8192) d) :=
  congrArg x1 (funext fun a => Fin.ext (by
    match a with
    | ⟨0, _⟩ => show K + 1 * j.val = K + j.val; omega
    | ⟨1, _⟩ => show 0 + 1 * d.val = d.val; omega))

/-- The in-bounds fact of a chunk's rectangle gives the bound on its first row. -/
theorem chunk_bound (K : Nat) (h : ∀ a, (![K, 0] : Fin 2 → Nat) a + S512x256.size a ≤ S8192x256.size a) :
    K + 512 ≤ 8192 := h 0

/-! ## The compared words -/

/-- Global row `1024 t + p` and global column `K + j`, as 32-bit words, are equal exactly when the numbers are:
    nothing wraps below 2³². -/
theorem word_eq_iff_of_le (t : Fin 8) (p : Fin 1024) (K : Nat) (hK : K + 512 ≤ 8192) (j : Fin 512) :
    (BitVec.ofNat 32 t.val * 1024#32 + BitVec.ofNat 32 p.val = BitVec.ofNat 32 K + BitVec.ofNat 32 j.val)
      ↔ (K + j.val = t.val * 1024 + p.val) := by
  have ht := t.isLt
  have hp := p.isLt
  have hj := j.isLt
  rw [← BitVec.ofNat_mul, ← BitVec.ofNat_add, ← BitVec.ofNat_add]
  constructor
  · intro he
    have e := congrArg BitVec.toNat he
    rw [BitVec.toNat_ofNat, BitVec.toNat_ofNat, Nat.mod_eq_of_lt (by omega), Nat.mod_eq_of_lt (by omega)] at e
    exact e.symm
  · intro he
    rw [he]

/-- The same with the column offset written `512 k`. -/
theorem word_eq_iff (t : Fin 8) (p : Fin 1024) (k : Fin 16) (j : Fin 512) :
    (BitVec.ofNat 32 t.val * 1024#32 + BitVec.ofNat 32 p.val = BitVec.ofNat 32 (512 * k.val) + BitVec.ofNat 32 j.val)
      ↔ (512 * k.val + j.val = t.val * 1024 + p.val) :=
  word_eq_iff_of_le t p (512 * k.val) (by have := k.isLt; omega) j

/-! ## One chunk's contribution -/

/-- Column `n`'s term of a row's denominator by selection, as a function of the column's number (zero past the last
    column, which no sum below reaches). -/
def selTerm (Z : Cert.Spec.Rows) (r : Fin 8192) (n : Nat) : EReal :=
  if h : n < 8192 then
    (if (⟨n, h⟩ : Fin 8192) = r then (0 : EReal) else Ideal.exp (Cert.Spec.sim Z r ⟨n, h⟩ * Cert.Spec.two))
  else 0

/-- A row's denominator by selection is the sum of its columns' terms. -/
theorem denomSel_eq (Z : Cert.Spec.Rows) (r : Fin 8192) :
    Cert.Spec.denomSel Z r = ∑ c : Fin 8192, selTerm Z r c.val := by
  unfold Cert.Spec.denomSel
  refine Finset.sum_congr rfl fun c _ => ?_
  unfold selTerm
  rw [dif_pos c.isLt]

/-- Row `p` of the running column after the chunk at rows `K … K + 511`: the old entry plus the terms of columns
    `K … K + 511` of global row `1024 t + p`. -/
theorem chunk_term (t : Fin 8) (p : Fin 1024) (a : FVec Ideal S1024x256 .f32) (x1 : Vec Ideal S8192x256 .f32)
    (Z : Cert.Spec.Rows)
    (ha : ∀ d : Fin 256, a (ix2 p d) = Z ⟨t.val * 1024 + p.val, by have := t.isLt; have := p.isLt; omega⟩ d)
    (hx : ∀ (r : Fin 8192) (d : Fin 256), x1 (ix2 r d) = Z r d)
    (K : Nat) (h : ∀ a, (![K, 0] : Fin 2 → Nat) a + S512x256.size a ≤ S8192x256.size a)
    (acc : Vec Ideal S1024x1 .f32) :
    chunkStep (F := Ideal) (BitVec.ofNat 32 t.val) (BitVec.ofNat 32 K) a
        (View.ld x1 (Rect.unit (s := S8192x256) ![K, 0] S512x256.size h)) acc (ix2 p (0 : Fin 1))
      = acc (ix2 p 0) + ∑ j : Fin 512,
          selTerm Z ⟨t.val * 1024 + p.val, by have := t.isLt; have := p.isLt; omega⟩ (K + j.val) := by
  have hK := chunk_bound K h
  rw [chunkStep_apply]
  refine congrArg (acc (ix2 p 0) + ·) (Finset.sum_congr rfl fun j _ => ?_)
  have hj := j.isLt
  unfold selTerm
  rw [dif_pos (show K + j.val < 8192 by omega)]
  have hs : (∑ d : Fin 256, a (ix2 p d) * View.ld x1 (Rect.unit (s := S8192x256) ![K, 0] S512x256.size h) (ix2 j d))
      = Cert.Spec.sim Z ⟨t.val * 1024 + p.val, by have := t.isLt; have := p.isLt; omega⟩ ⟨K + j.val, by omega⟩ := by
    unfold Cert.Spec.sim
    refine Finset.sum_congr rfl fun d _ => ?_
    rw [ha, ld_chunk_apply x1 K h hK, hx]
  rw [hs]
  by_cases hc : K + j.val = t.val * 1024 + p.val
  · rw [if_pos ((word_eq_iff_of_le t p K hK j).mpr hc), if_pos (Fin.ext hc)]
  · rw [if_neg (fun he => hc ((word_eq_iff_of_le t p K hK j).mp he)), if_neg (fun he => hc (congrArg Fin.val he))]

/-! ## The sixteen chunks -/

/-- Row `p` of the scratch column after the sixteen chunks, for tile `t`, is the denominator by selection of global
    row `1024 t + p`, when the tile holds that row of `Z` and the resident operand holds `Z`. -/
theorem colAfter_apply (t : Fin 8) (p : Fin 1024) (a : FVec Ideal S1024x256 .f32) (x1 : Vec Ideal S8192x256 .f32)
    (Z : Cert.Spec.Rows)
    (ha : ∀ d : Fin 256, a (ValueIdx.ix2 p d) = Z ⟨t.val * 1024 + p.val, by have := t.isLt; have := p.isLt; omega⟩ d)
    (hx : ∀ (r : Fin 8192) (d : Fin 256), x1 (ValueIdx.ix2 r d) = Z r d) :
    colAfter (F := Ideal) (BitVec.ofNat 32 t.val) a x1 (ValueIdx.ix2 p (0 : Fin 1))
      = Cert.Spec.denomSel Z ⟨t.val * 1024 + p.val, by have := t.isLt; have := p.isLt; omega⟩ := by
  rw [denomSel_eq]
  have hb := Cert.BlockSum.sum_range_blocks 16 512
    (selTerm Z ⟨t.val * 1024 + p.val, by have := t.isLt; have := p.isLt; omega⟩)
  have hb' : (∑ c : Fin 8192, selTerm Z ⟨t.val * 1024 + p.val, by have := t.isLt; have := p.isLt; omega⟩ c.val)
      = ∑ s ∈ Finset.range 16, ∑ j : Fin 512,
          selTerm Z ⟨t.val * 1024 + p.val, by have := t.isLt; have := p.isLt; omega⟩ (512 * s + j.val) := hb
  rw [hb']
  unfold colAfter
  simp only [chunk_term t p a x1 Z ha hx, zeroCol_apply]
  simp only [Finset.sum_range_succ, Finset.sum_range_zero, Nat.reduceMul, zero_add]

end Cert.KernelIdeal.KValue

end
-- ==== Proof.KTail.lean ====
/-
  The host operations that follow the kernel region, read as a function of the three buffers they consume.

  The normalised embeddings `zn` and the column `D` of denominators give the vector of per-row losses
  `log D r − ⟨zn r, zn (partner r)⟩ / ½`; the losses and the weights `w`, tiled twice, give the weighted mean.
-/
import proofs.«123943_j34471407518032_2_alg».proof.Proof.Gen.KernelIdeal.Launch
import proofs.«123943_j34471407518032_2_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.TcCoe Idealize.SL.Sem
open Idealize.ShloMosaic.StableHlo

/-- The row sums of the products of the two halves of `zn`, the half at offset `p` times the half at offset `q`. -/
def halfDots (zn : FVec Ideal S8192x256 .f32) : FVec Ideal S8192 .f32 :=
  concatenate S8192 0
    [⟨S4096, Host.reduceAdd (F := Ideal)
        (mulf (extractStridedSlice S4096x256 ![0, 0] zn slices_S8192x256_S4096x256_0_0)
          (extractStridedSlice S4096x256 ![4096, 0] zn slices_S8192x256_S4096x256_4096_0))
        (constant (F := Ideal) S_ .f32 0x00000000#32) reducesTo_S4096x256_S4096_d1 h_S_⟩,
     ⟨S4096, Host.reduceAdd (F := Ideal)
        (mulf (extractStridedSlice S4096x256 ![4096, 0] zn slices_S8192x256_S4096x256_4096_0)
          (extractStridedSlice S4096x256 ![0, 0] zn slices_S8192x256_S4096x256_0_0))
        (constant (F := Ideal) S_ .f32 0x00000000#32) reducesTo_S4096x256_S4096_d1 h_S_⟩]
    concatenates_S4096_S4096_S8192_d0

/-- The per-row losses: the logarithm of the denominator less the positive similarity divided by one half. -/
def lossVec (zn : FVec Ideal S8192x256 .f32) (D : FVec Ideal S8192x1 .f32) : FVec Ideal S8192 .f32 :=
  subf (Host.log (F := Ideal) (shapeCast S8192 D shapeCasts_S8192x1_S8192))
    (Host.divf (F := Ideal) (halfDots zn)
      (broadcastInDim S8192 ![] bcast_S_S8192 (constant (F := Ideal) S_ .f32 0x3F000000#32)))

/-- The weights tiled twice. -/
def tiled (w : FVec Ideal S4096 .f32) : FVec Ideal S8192 .f32 :=
  shapeCast S8192 (broadcastInDim S2x4096 ![0, 1] bcast_S1x4096_S2x4096_0_1
    (shapeCast S1x4096 w shapeCasts_S4096_S1x4096)) shapeCasts_S2x4096_S8192

/-- The weighted mean of the losses. -/
def wmean (L : FVec Ideal S8192 .f32) (w : FVec Ideal S4096 .f32) : FVec Ideal S_ .f32 :=
  Host.divf (F := Ideal)
    (Host.reduceAdd (F := Ideal) (mulf L (tiled w)) (constant (F := Ideal) S_ .f32 0x00000000#32) reducesTo_S8192_S_d0 h_S_)
    (Host.reduceAdd (F := Ideal) (tiled w) (constant (F := Ideal) S_ .f32 0x00000000#32) reducesTo_S8192_S_d0 h_S_)

/-- What the last buffer holds after the operations that follow the region. -/
theorem tail_value (W : Valuation τ sig (Elt Ideal)) :
    StableHlo.after (Gen.hostOps1 (F := Ideal)) W (Proc.devRef .tc main_v27)
      = wmean (lossVec (W (Proc.devRef .tc main_v5)) (W (Proc.devRef .tc main_v6))) (W (Proc.devRef .tc main_arg2)) := by
  after_results_simp
  rfl

/-! ### The losses read at a row -/

/-- The lower half of `zn` at row `r` is `zn` at row `r`. -/
theorem sliceLo_apply (zn : FVec Ideal S8192x256 .f32) (r : Fin 4096) (d : Fin 256) :
    extractStridedSlice S4096x256 ![0, 0] zn slices_S8192x256_S4096x256_0_0 (ValueIdx.ix2 r d)
      = zn (ValueIdx.ix2 (⟨r.val, by have := r.isLt; omega⟩ : Fin 8192) d) :=
  extractStridedSlice_apply _ zn _ _ _ (fun a => match a with
    | ⟨0, _⟩ => by show r.val = 0 + r.val; omega
    | ⟨1, _⟩ => by show d.val = 0 + d.val; omega)

/-- The upper half of `zn` at row `r` is `zn` at row `r + 4096`. -/
theorem sliceHi_apply (zn : FVec Ideal S8192x256 .f32) (r : Fin 4096) (d : Fin 256) :
    extractStridedSlice S4096x256 ![4096, 0] zn slices_S8192x256_S4096x256_4096_0 (ValueIdx.ix2 r d)
      = zn (ValueIdx.ix2 (⟨r.val + 4096, by have := r.isLt; omega⟩ : Fin 8192) d) :=
  extractStridedSlice_apply _ zn _ _ _ (fun a => match a with
    | ⟨0, _⟩ => by show r.val + 4096 = 4096 + r.val; omega
    | ⟨1, _⟩ => by show d.val = 0 + d.val; omega)

/-- The row sums of a product of two arrays of 4096 rows, from the zero word: the inner products of the rows. -/
theorem rowDot_apply (x y : FVec Ideal S4096x256 .f32) (r : Fin 4096) :
    Host.reduceAdd (F := Ideal) (mulf x y) (constant (F := Ideal) S_ .f32 0x00000000#32)
        reducesTo_S4096x256_S4096_d1 h_S_ (ValueIdx.ix1 r)
      = ∑ d : Fin 256, x (ValueIdx.ix2 r d) * y (ValueIdx.ix2 r d) := by
  simp only [Host.reduceAdd, Ideal.hostReduceAdd_def]
  rw [Ideal.hostReduceAdd_single reducesTo_S4096x256_S4096_d1 (by decide)]
  have h0 : (constant (F := Ideal) S_ .f32 0x00000000#32) (Shape.Idx.first h_S_) = 0 := Ideal.ofBits_zero_f32
  rw [h0, zero_add]
  refine Finset.sum_congr rfl fun k _ => ?_
  exact congrArg (fun j => x j * y j)
    (funext fun a => Fin.ext (by match a with | ⟨0, _⟩ => rfl | ⟨1, _⟩ => rfl))

/-- The two stacked vectors of inner products, read at a row: the similarity of the row and its partner. -/
theorem halfDots_apply (zn : FVec Ideal S8192x256 .f32) (i : S8192.Idx) :
    halfDots zn i
      = Cert.Spec.sim (fun r d => zn (ValueIdx.ix2 r d)) (i 0) (Cert.Spec.partner (i 0)) := by
  unfold halfDots Cert.Spec.sim
  by_cases h : (i 0).val < 4096
  · rw [concatenate_pair_apply_left (t := S8192) (s₁ := S4096) (s₂ := S4096) (0 : Fin 1) _ _ concatenates_S4096_S4096_S8192_d0 i rfl
      (ValueIdx.ix1 (⟨(i 0).val, h⟩ : Fin 4096)) (fun b => match b with | ⟨0, _⟩ => rfl), rowDot_apply]
    refine Finset.sum_congr rfl fun d _ => ?_
    have e2 : (⟨(i 0).val + 4096, by omega⟩ : Fin 8192) = Cert.Spec.partner (i 0) :=
      Fin.ext (by show (i 0).val + 4096 = ((i 0).val + 4096) % 8192; omega)
    rw [sliceLo_apply, sliceHi_apply]
    exact congrArg (fun t => zn (ValueIdx.ix2 (i 0) d) * zn (ValueIdx.ix2 t d)) e2
  · have hlt : (i 0).val < 8192 := (i 0).isLt
    rw [concatenate_pair_apply_right (t := S8192) (s₁ := S4096) (s₂ := S4096) (0 : Fin 1) _ _ concatenates_S4096_S4096_S8192_d0 i rfl rfl
      (ValueIdx.ix1 (⟨(i 0).val - 4096, by omega⟩ : Fin 4096)) (fun b hb => match b with | ⟨0, _⟩ => absurd rfl hb)
      (by show (i 0).val - 4096 + 4096 = (i 0).val; omega), rowDot_apply]
    refine Finset.sum_congr rfl fun d _ => ?_
    have e1 : (⟨(i 0).val - 4096 + 4096, by omega⟩ : Fin 8192) = i 0 := Fin.ext (by show (i 0).val - 4096 + 4096 = (i 0).val; omega)
    have e2 : (⟨(i 0).val - 4096, by omega⟩ : Fin 8192) = Cert.Spec.partner (i 0) :=
      Fin.ext (by show (i 0).val - 4096 = ((i 0).val + 4096) % 8192; omega)
    rw [sliceLo_apply, sliceHi_apply]
    exact (congrArg (fun t => zn (ValueIdx.ix2 t d) * zn (ValueIdx.ix2 (⟨(i 0).val - 4096, by omega⟩ : Fin 8192) d)) e1).trans
      (congrArg (fun t => zn (ValueIdx.ix2 (i 0) d) * zn (ValueIdx.ix2 t d)) e2)

/-- The losses read at a row: the logarithm of the row's denominator less the similarity of the row and its partner
    divided by one half. -/
theorem lossVec_apply (zn : FVec Ideal S8192x256 .f32) (D : FVec Ideal S8192x1 .f32) (i : S8192.Idx) :
    lossVec zn D i = Ideal.log (D (ValueIdx.ix2 (i 0) 0))
      - Ideal.div (Cert.Spec.sim (fun r d => zn (ValueIdx.ix2 r d)) (i 0) (Cert.Spec.partner (i 0))) Cert.Spec.half := by
  have hD : shapeCast S8192 D shapeCasts_S8192x1_S8192 i = D (ValueIdx.ix2 (i 0) 0) :=
    shapeCast_apply D shapeCasts_S8192x1_S8192 i (ValueIdx.ix2 (i 0) 0)
      (by rewrite [Shape.rowMajor_val_two, Shape.rowMajor_val_one]; show (i 0).val * 1 + 0 = (i 0).val; omega)
  show Ideal.log (shapeCast S8192 D shapeCasts_S8192x1_S8192 i)
    - Ideal.div (halfDots zn i) (Ideal.ofBits .f32 0x3F000000#32) = _
  rw [hD, halfDots_apply]
  rfl

/-! ### The operations after the region leave the three arguments as they were -/

theorem tail_keeps_arg0 (W : Valuation τ sig (Elt Ideal)) :
    StableHlo.after (Gen.hostOps1 (F := Ideal)) W (Proc.devRef .tc main_arg0) = W (Proc.devRef .tc main_arg0) := by
  after_results_simp <;> rfl

theorem tail_keeps_arg1 (W : Valuation τ sig (Elt Ideal)) :
    StableHlo.after (Gen.hostOps1 (F := Ideal)) W (Proc.devRef .tc main_arg1) = W (Proc.devRef .tc main_arg1) := by
  after_results_simp <;> rfl

theorem tail_keeps_arg2 (W : Valuation τ sig (Elt Ideal)) :
    StableHlo.after (Gen.hostOps1 (F := Ideal)) W (Proc.devRef .tc main_arg2) = W (Proc.devRef .tc main_arg2) := by
  after_results_simp <;> rfl

end Cert.KernelIdeal.KValue

end
-- ==== Proof.KPrefix.lean ====
/-
  The host operations before the kernel region: both programs normalise the stacked embeddings by the same five steps
  (stack the two arrays, take each row's Euclidean norm as a column, clamp it below, spread it over the row, divide),
  so the buffer the region reads holds the reference's own normalised array.
-/
import proofs.«123943_j34471407518032_2_alg».proof.Proof.Gen.KernelIdeal.Launch
import proofs.«123943_j34471407518032_2_alg».proof.Proof.Gen.ReferenceIdeal.Read
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.TcCoe Idealize.SL.Sem
open Idealize.ShloMosaic.StableHlo

/-- What the normalised buffer holds after the operations before the region: the reference's normalised array of the
    same two arguments. -/
theorem prefix_value (W : Valuation τ sig (Elt Ideal)) :
    StableHlo.after (List.flatten [Gen.hostOps0 (F := Ideal), Gen.hostOps0_1, Gen.hostOps0_2]) W (Proc.devRef .tc main_v5)
      = Cert.ReferenceIdeal.Read.val_main_v5 (F := Ideal) (W (Proc.devRef .tc main_arg0)) (W (Proc.devRef .tc main_arg1)) := by
  simp only [List.flatten_cons, List.flatten_nil, List.cons_append, List.nil_append, List.append_nil]
  after_results_simp
  rfl

/-! ### The operations before the region leave the three arguments as they were -/

theorem prefix_keeps_arg0 (W : Valuation τ sig (Elt Ideal)) :
    StableHlo.after (List.flatten [Gen.hostOps0 (F := Ideal), Gen.hostOps0_1, Gen.hostOps0_2]) W (Proc.devRef .tc main_arg0)
      = W (Proc.devRef .tc main_arg0) := by
  simp only [List.flatten_cons, List.flatten_nil, List.cons_append, List.nil_append, List.append_nil]
  after_results_simp <;> rfl

theorem prefix_keeps_arg1 (W : Valuation τ sig (Elt Ideal)) :
    StableHlo.after (List.flatten [Gen.hostOps0 (F := Ideal), Gen.hostOps0_1, Gen.hostOps0_2]) W (Proc.devRef .tc main_arg1)
      = W (Proc.devRef .tc main_arg1) := by
  simp only [List.flatten_cons, List.flatten_nil, List.cons_append, List.nil_append, List.append_nil]
  after_results_simp <;> rfl

theorem prefix_keeps_arg2 (W : Valuation τ sig (Elt Ideal)) :
    StableHlo.after (List.flatten [Gen.hostOps0 (F := Ideal), Gen.hostOps0_1, Gen.hostOps0_2]) W (Proc.devRef .tc main_arg2)
      = W (Proc.devRef .tc main_arg2) := by
  simp only [List.flatten_cons, List.flatten_nil, List.cons_append, List.nil_append, List.append_nil]
  after_results_simp <;> rfl

end Cert.KernelIdeal.KValue

end
-- ==== Proof.KI.Value.lean ====
/-
  The kernel program's result as a function of its arguments, at the ideal instance.

  After the region the output array holds, at row `r`, the denominator of row `r`: the point `r / 1024` wrote its block
  back, and the block's entry `r % 1024` is the scratch column after the sixteen chunk steps, that is the sum over all
  8192 columns `c ≠ r` of `exp (2 · ⟨row r, row c⟩)` of the normalised rows.  The host lines after the region then form
  `log denominator − positive / ½` per row and the weighted mean.
-/
import proofs.«123943_j34471407518032_2_alg».proof.Proof.KI.Launch
import proofs.«123943_j34471407518032_2_alg».proof.Proof.KI.OutValue
import proofs.«123943_j34471407518032_2_alg».proof.Proof.KI.Blocks
import proofs.«123943_j34471407518032_2_alg».proof.Proof.KI.ColApply
import proofs.«123943_j34471407518032_2_alg».proof.Proof.KTail
import proofs.«123943_j34471407518032_2_alg».proof.Proof.KPrefix

set_option maxRecDepth 16384

noncomputable section

namespace Cert.KernelIdeal.Hand

open Cert.KernelIdeal Cert.KernelIdeal.Gen Cert.KernelIdeal.KValue
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The grid is one-dimensional: a point's coordinate is its position. -/
theorem coords_val : ∀ t : Fin cfg0.N, (grid0.coords t 0).val = t.val := by decide +kernel

/-- The normalised rows as the region finds them. -/
abbrev rowsK (c : Dev nD) : Cert.Spec.Rows := fun p q => V m c main_v5 (ix2 p q)

/-- THE DENOMINATORS: after the region, row `r` of the output array is the sum over the other rows `c` of
    `exp (2 · sim r c)`. -/
theorem denoms (c : Dev nD) (r : Fin 8192) :
    (dats m 0 c).arrAt 2 cfg0.N (ix2 r (0 : Fin 1)) = Cert.Spec.denomSel (rowsK m c) r := by
  have hN : cfg0.N = 8 := N_0
  have hr := r.isLt
  rw [final_out m c r]
  unfold outAt0
  rw [out0_2_eq, coords_val]
  have h := colAfter_apply (⟨r.val / 1024, by omega⟩ : Fin 8) (⟨r.val % 1024, Nat.mod_lt _ (by norm_num)⟩ : Fin 1024)
    (k0_pay2 (iblk m c 0 ⟨r.val / 1024, by omega⟩)) (iblk m c 1 ⟨r.val / 1024, by omega⟩) (rowsK m c)
    (fun d => by
      unfold k0_pay2
      rw [shapeCast_self]
      exact iblk0_apply m c ⟨r.val / 1024, by omega⟩ ⟨r.val % 1024, Nat.mod_lt _ (by norm_num)⟩ d)
    (fun r' d => iblk1_apply m c ⟨r.val / 1024, by omega⟩ r' d)
  refine h.trans (congrArg (Cert.Spec.denomSel (rowsK m c)) (Fin.ext ?_))
  show r.val / 1024 * 1024 + r.val % 1024 = r.val
  omega

/-- The kernel program's result on core `c`. -/
def kres (c : Dev nD) : Buf (Elt Ideal) ((c : Thread nD τ).loc main_v27) :=
  wmean (lossVec (V m c main_v5) ((dats m 0 c).arrAt 2 cfg0.N)) (m ((c : Thread nD τ).loc main_arg2))

/-- Its per-row losses are `log denominator − positive / ½` of the normalised rows. -/
theorem lossVec_eq (c : Dev nD) (i : S8192.Idx) :
    lossVec (V m c main_v5) ((dats m 0 c).arrAt 2 cfg0.N) i = Cert.Spec.lossSel (rowsK m c) (i 0) := by
  rw [lossVec_apply]
  exact congrArg (fun x => Ideal.log x - Ideal.div (Cert.Spec.sim (rowsK m c) (i 0) (Cert.Spec.partner (i 0))) Cert.Spec.half)
    (denoms m c (i 0))

/-- The run, read: the result at `kres`, the arguments unchanged. -/
theorem run_value : θ_run defs (onTc (τ := τ) (main (F := Ideal))) ⟨m, fun _ => 0, ρ⟩ (fun r => ∀ c : Dev nD,
      r.2.mem ((c.tc : Thread nD τ).loc main_v27) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v27 (Pipeline.mem_restRefs_of main_v27 (by decide) (by decide))).trans (by
        have e : List.flatten [hostOps1 (F := Ideal)] = hostOps1 := by
          simp only [List.flatten_cons, List.flatten_nil, List.append_nil]
        rw [e]
        show StableHlo.after hostOps1 (W0 m c) (Proc.devRef .tc main_v27) = kres m c
        rw [tail_value, W0_of_ne m c main_v5 (by decide), W0_v6, W0_of_ne m c main_arg2 (by decide)]
        show wmean (lossVec (V m c main_v5) ((dats m 0 c).arrAt 2 cfg0.N)) (V m c main_arg2) = _
        rw [V_main_arg2]
        rfl),
      ((h c).2 main_arg0 (Pipeline.mem_restRefs_of main_arg0 (by decide) (by decide))).trans
        ((tail_keeps _ main_arg0 (.inl rfl)).trans ((W0_of_ne m c main_arg0 (by decide)).trans (V_main_arg0 m c))),
      ((h c).2 main_arg1 (Pipeline.mem_restRefs_of main_arg1 (by decide) (by decide))).trans
        ((tail_keeps _ main_arg1 (.inr (.inl rfl))).trans ((W0_of_ne m c main_arg1 (by decide)).trans (V_main_arg1 m c))),
      ((h c).2 main_arg2 (Pipeline.mem_restRefs_of main_arg2 (by decide) (by decide))).trans
        ((tail_keeps _ main_arg2 (.inr (.inr rfl))).trans ((W0_of_ne m c main_arg2 (by decide)).trans (V_main_arg2 m c)))⟩) (run_main m ρ)

/-- The normalised rows the region finds are the reference's normalised rows of the same arguments. -/
theorem V_main_v5 (c : Dev nD) :
    V m c main_v5 = Cert.ReferenceIdeal.Read.val_main_v5 (F := Ideal) (m ((c : Thread nD τ).loc main_arg0)) (m ((c : Thread nD τ).loc main_arg1)) :=
  prefix_value (fun b => m (c, b))

end Cert.KernelIdeal.Hand

end
-- ==== Proof.RefValue1.lean ====
/-
  Words and literals met when the reference is read at an index: the single-precision word of one, a small
  number's 32-bit word read signed, the sum of two such words, and the bit of "row = column" as an extended real.
-/
import Idealize.ShloMosaic.PureOps.Ideal
import Idealize.ShloMosaic.PureOps.Ideal.Laws
import Idealize.ShloMosaic.Lib.ValueIdx
import Idealize.ShloMosaic.Lib.WordArith

noncomputable section

namespace Cert.ReferenceIdeal.RefValue

open Idealize.ShloMosaic

/-- The single-precision word of one is the extended real one. -/
theorem ofBits_one_f32 : Ideal.ofBits .f32 0x3F800000#32 = (1 : EReal) := by
  simp [Ideal.ofBits, Ideal.ieee, -EReal.coe_mul]; norm_num

/-- A number below 2³¹, as a 32-bit word, is not signed-below zero. -/
theorem cmpi_slt_ofNat_zero (n : Nat) (hn : n < 2 ^ 31) :
    IntOp.cmpi .slt (BitVec.ofNat 32 n) 0#32 = 0#1 := by
  have h : (BitVec.ofNat 32 n).slt 0#32 = false := by
    simp only [BitVec.slt, BitVec.toInt_zero, decide_eq_false_iff_not, Int.not_lt]
    rw [WordArith.toInt_ofNat_small n hn]; omega
  show BitVec.ofBool ((BitVec.ofNat 32 n).slt 0#32) = 0#1
  rw [h]; rfl

/-- A number below 2³¹, as a 32-bit word read signed and then as a natural number, is itself. -/
theorem toInt_toNat_ofNat (n : Nat) (hn : n < 2 ^ 31) : (BitVec.ofNat 32 n).toInt.toNat = n := by
  rw [WordArith.toInt_ofNat_small n hn]; omega

/-- The sum of two numbers' words is the word of the sum. -/
theorem addi_ofNat (a b : Nat) :
    IntOp.addi (BitVec.ofNat 32 a) (BitVec.ofNat 32 b) = BitVec.ofNat 32 (a + b) := by
  show BitVec.ofNat 32 a + BitVec.ofNat 32 b = _
  exact (BitVec.ofNat_add a b).symm

/-- The bit of "row + 0 = column" on 32-bit words, converted unsigned to a float, is one on the diagonal and zero
    off it. -/
theorem uitofp_eq_bit (r c : Fin 8192) :
    FloatOps.uitofp (F := Ideal) .f32
        (IntOp.cmpi .eq (IntOp.addi (BitVec.ofNat 32 r.val) 0#32) (BitVec.ofNat 32 c.val))
      = if c = r then (1 : EReal) else 0 := by
  have h0 : IntOp.addi (BitVec.ofNat 32 r.val) 0#32 = BitVec.ofNat 32 r.val := by
    show BitVec.ofNat 32 r.val + 0#32 = _
    exact BitVec.add_zero _
  rw [h0]
  by_cases h : c = r
  · subst h
    rw [if_pos rfl]
    show (((BitVec.ofBool (BitVec.ofNat 32 c.val == BitVec.ofNat 32 c.val)).toNat : ℝ) : EReal) = 1
    rw [beq_self_eq_true]
    simp
  · rw [if_neg h]
    have hne : (BitVec.ofNat 32 r.val == BitVec.ofNat 32 c.val) = false := by
      rw [beq_eq_false_iff_ne]
      intro he
      have e := congrArg BitVec.toNat he
      have hr := r.isLt
      have hc := c.isLt
      rw [BitVec.toNat_ofNat, BitVec.toNat_ofNat, Nat.mod_eq_of_lt (by omega), Nat.mod_eq_of_lt (by omega)] at e
      exact h (Fin.ext e.symm)
    show (((BitVec.ofBool (BitVec.ofNat 32 r.val == BitVec.ofNat 32 c.val)).toNat : ℝ) : EReal) = 0
    rw [hne]
    simp

end Cert.ReferenceIdeal.RefValue

end
-- ==== Proof.RefValue2.lean ====
/-
  The reference's similarity matrix, its mask and its row denominators, read at an index.

  With `y` the normalised rows (the quotient buffer read at `ix2 p q`), entry `(r, c)` of the product of `y` with its
  transpose is `Σ_d y r d · y c d`; the mask `1 − float (row + 0 = column)` is `1 − [c = r]`; and the row sum of the
  mask times `exp (similarity / ½)`, started from the zero word, is the masked denominator.
-/
import proofs.«123943_j34471407518032_2_alg».proof.Proof.Spec
import proofs.«123943_j34471407518032_2_alg».proof.Proof.Gen.ReferenceIdeal.Read
import proofs.«123943_j34471407518032_2_alg».proof.Proof.RefValue1

noncomputable section

namespace Cert.ReferenceIdeal.RefValue

open Cert.ReferenceIdeal Cert.ReferenceIdeal.Gen Idealize.ShloMosaic Idealize.ShloMosaic.StableHlo Idealize.ShloMosaic.ValueIdx

/-- The normalised rows: the quotient buffer read by coordinates. -/
abbrev rows (a0 a1 : (⟨S4096x256, .f32⟩ : BufTy).Contents (Elt Ideal)) : Cert.Spec.Rows :=
  fun p q => Read.val_main_v5 (F := Ideal) a0 a1 (ix2 p q)

/-- Entry `(r, c)` of the product with the transpose is the similarity of rows `r` and `c`. -/
theorem sim_apply (a0 a1 : (⟨S4096x256, .f32⟩ : BufTy).Contents (Elt Ideal)) (r c : Fin 8192) :
    Read.val_main_v7 (F := Ideal) a0 a1 (ix2 r c) = Cert.Spec.sim (rows a0 a1) r c := by
  rw [Read.val_main_v7_apply]
  unfold Cert.Spec.sim rows
  refine Finset.sum_congr rfl fun k _ => ?_
  rw [Read.val_main_v6_apply]
  have e1 : Read.lidx_main_v7 (ix2 r c) k = ix2 r k :=
    funext fun a => Fin.ext (by match a with | ⟨0, _⟩ => rfl | ⟨1, _⟩ => rfl)
  have e2 : Read.idx_main_v6 (Read.ridx_main_v7 (ix2 r c) k) = ix2 c k :=
    funext fun a => Fin.ext (by match a with | ⟨0, _⟩ => rfl | ⟨1, _⟩ => rfl)
  rw [e1, e2]

/-- The mask at `(r, c)` is one minus the indicator of the diagonal. -/
theorem mask_apply (r c : Fin 8192) :
    Read.val_main_v18 (F := Ideal) (ix2 r c) = (1 : EReal) - (if c = r then (1 : EReal) else 0) := by
  rw [Read.val_main_v18_apply, Read.val_main_v17_apply, Read.val_main_cst_0_apply, Read.val_main_v16_apply,
    Read.val_main_v15_apply, Read.val_main_v14_apply, Read.val_main_v11_apply, Read.val_main_v13_apply,
    Read.val_main_c_apply, Read.val_main_v12_apply]
  show (Ideal.ofBits .f32 0x3F800000#32 : EReal)
      - FloatOps.uitofp (F := Ideal) .f32
          (IntOp.cmpi .eq (IntOp.addi (BitVec.ofNat 32 r.val) 0#32) (BitVec.ofNat 32 c.val)) = _
  rw [ofBits_one_f32, uitofp_eq_bit]

/-- A row's sum of the masked exponentials, started from the zero word, is the masked denominator. -/
theorem denom_apply (a0 a1 : (⟨S4096x256, .f32⟩ : BufTy).Contents (Elt Ideal)) (r : Fin 8192) :
    Read.val_main_v23 (F := Ideal) a0 a1 (ix1 r) = Cert.Spec.denomMask (rows a0 a1) r := by
  rw [Read.val_main_v23_apply, Read.val_main_cst_2_apply]
  show (Ideal.ofBits .f32 0x00000000#32 : EReal) + _ = _
  rw [Ideal.ofBits_zero_f32, zero_add]
  unfold Cert.Spec.denomMask
  refine Finset.sum_congr rfl fun c _ => ?_
  have e : Read.idx_main_v23 (ix1 r) c = ix2 r c :=
    funext fun a => Fin.ext (by match a with | ⟨0, _⟩ => rfl | ⟨1, _⟩ => rfl)
  rw [e, Read.val_main_v22_apply, mask_apply, Read.val_main_v21_apply, Read.val_main_v20_apply, sim_apply,
    Read.val_main_v19_apply, Read.val_main_cst_1_apply]
  generalize Cert.Spec.sim (rows a0 a1) r c = s
  rfl

end Cert.ReferenceIdeal.RefValue

end
-- ==== Proof.RefValue3.lean ====
/-
  The reference's positives, read at an index.

  The two gathers take single entries of the similarity matrix at start indices built from an iota: rows `t` and
  columns `4096 + t` for the diagonal above, rows `4096 + t` and columns `t` for the diagonal below (the branch that
  would add 8192 to a negative index is never taken, the indices being below 2³¹).  Stacked, entry `r` is the
  similarity of row `r` with its partner, the row 4096 further on cyclically.
-/
import proofs.«123943_j34471407518032_2_alg».proof.Proof.Spec
import proofs.«123943_j34471407518032_2_alg».proof.Proof.Gen.ReferenceIdeal.Read
import proofs.«123943_j34471407518032_2_alg».proof.Proof.RefValue2

noncomputable section

namespace Cert.ReferenceIdeal.RefValue

open Cert.ReferenceIdeal Cert.ReferenceIdeal.Gen Idealize.ShloMosaic Idealize.ShloMosaic.StableHlo Idealize.ShloMosaic.ValueIdx

/-- The gather of single entries of a square matrix: result entry `t` is the matrix at the row and column that the
    start indices hold at `(t, 0)` and `(t, 1)`, read signed and clamped into the matrix. -/
theorem gather_entry_apply {α : Type} (x : S8192x8192.Idx → α) (idx : IVec S4096x2 32) (t : Fin 4096) (p q : Fin 8192)
    (hp : min (idx (ix2 t (0 : Fin 2))).toInt.toNat 8191 = p.val)
    (hq : min (idx (ix2 t (1 : Fin 2))).toInt.toNat 8191 = q.val) :
    Host.gather gather_S8192x8192_S4096x2_S4096_n_01_n_n_01_1_11 x idx (ix1 t) = x (ix2 p q) := by
  have m0 : (0 : Fin S8192x8192.rank) ∈ gather_S8192x8192_S4096x2_S4096_n_01_n_n_01_1_11.startIndexMap :=
    List.mem_cons_self
  have m1 : (1 : Fin S8192x8192.rank) ∈ gather_S8192x8192_S4096x2_S4096_n_01_n_n_01_1_11.startIndexMap :=
    List.mem_cons_of_mem _ List.mem_cons_self
  have h0 : gather_S8192x8192_S4096x2_S4096_n_01_n_n_01_1_11.start (ix1 t) idx (0 : Fin S8192x8192.rank) = p.val := by
    unfold GatherDims.start
    rw [dif_pos m0]
    have hsi : gather_S8192x8192_S4096x2_S4096_n_01_n_n_01_1_11.siIdx (ix1 t)
        ⟨List.idxOf (0 : Fin S8192x8192.rank) gather_S8192x8192_S4096x2_S4096_n_01_n_n_01_1_11.startIndexMap,
          List.idxOf_lt_length_iff.2 m0⟩ = ix2 t (0 : Fin 2) := by
      funext b; refine Fin.ext ?_
      match b with
      | ⟨0, _⟩ => rfl
      | ⟨1, _⟩ => rfl
    rw [hsi]
    exact hp
  have h1 : gather_S8192x8192_S4096x2_S4096_n_01_n_n_01_1_11.start (ix1 t) idx (1 : Fin S8192x8192.rank) = q.val := by
    unfold GatherDims.start
    rw [dif_pos m1]
    have hsi : gather_S8192x8192_S4096x2_S4096_n_01_n_n_01_1_11.siIdx (ix1 t)
        ⟨List.idxOf (1 : Fin S8192x8192.rank) gather_S8192x8192_S4096x2_S4096_n_01_n_n_01_1_11.startIndexMap,
          List.idxOf_lt_length_iff.2 m1⟩ = ix2 t (1 : Fin 2) := by
      funext b; refine Fin.ext ?_
      match b with
      | ⟨0, _⟩ => rfl
      | ⟨1, _⟩ => rfl
    rw [hsi]
    exact hq
  unfold Host.gather
  congr 1
  funext a
  refine Fin.ext ?_
  show gather_S8192x8192_S4096x2_S4096_n_01_n_n_01_1_11.start (ix1 t) idx a
      + gather_S8192x8192_S4096x2_S4096_n_01_n_n_01_1_11.batchCoord (ix1 t) a
      + gather_S8192x8192_S4096x2_S4096_n_01_n_n_01_1_11.offCoord (ix1 t) a = _
  have hc : a ∈ gather_S8192x8192_S4096x2_S4096_n_01_n_n_01_1_11.collapsedSliceDims := by
    match a with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ (fun h => ((GatherDims.mem_sKept _ _).mp h).1 hc)]
  simp only [Nat.add_zero]
  match a with
  | ⟨0, _⟩ => exact h0
  | ⟨1, _⟩ => exact h1

/-- The start indices of the diagonal above: row `t`. -/
theorem up_row (t : Fin 4096) :
    Read.val_main_call1_v16 (F := Ideal) (ix2 t (0 : Fin 2)) = BitVec.ofNat 32 t.val := by
  unfold Read.val_main_call1_v16
  rw [concatenate_pair_apply_left (1 : Fin S4096x2.rank) _ _ concatenates_S4096x1_S4096x1_S4096x2_d1
    (ix2 t (0 : Fin 2)) rfl (ix2 t (0 : Fin 1)) (fun b => by match b with | ⟨0, _⟩ => rfl | ⟨1, _⟩ => rfl)]
  rw [Read.val_main_call1_v14_apply, Read.val_main_call1_v8_apply, Read.val_main_call1_v5_apply,
    Read.val_main_call1_v0_apply, Read.val_main_call1_v4_apply, Read.val_main_call1_c_0_apply]
  show Scalar.select (IntOp.cmpi .slt (BitVec.ofNat 32 t.val) 0#32) _ (BitVec.ofNat 32 t.val) = _
  rw [cmpi_slt_ofNat_zero _ (by have := t.isLt; omega), select_zero]

/-- The start indices of the diagonal above: column `4096 + t`. -/
theorem up_col (t : Fin 4096) :
    Read.val_main_call1_v16 (F := Ideal) (ix2 t (1 : Fin 2)) = BitVec.ofNat 32 (4096 + t.val) := by
  unfold Read.val_main_call1_v16
  rw [concatenate_pair_apply_right (1 : Fin S4096x2.rank) _ _ concatenates_S4096x1_S4096x1_S4096x2_d1
    (ix2 t (1 : Fin 2)) rfl rfl (ix2 t (0 : Fin 1))
    (fun b hb => by match b with | ⟨0, _⟩ => rfl | ⟨1, _⟩ => exact absurd rfl hb) rfl]
  rw [Read.val_main_call1_v15_apply, Read.val_main_call1_v13_apply, Read.val_main_call1_v10_apply,
    Read.val_main_call1_v3_apply, Read.val_main_call1_v2_apply, Read.val_main_call1_c_apply,
    Read.val_main_call1_v1_apply, Read.val_main_call1_v9_apply, Read.val_main_call1_c_2_apply]
  show Scalar.select (IntOp.cmpi .slt (IntOp.addi (BitVec.ofNat 32 4096) (BitVec.ofNat 32 t.val)) 0#32) _
      (IntOp.addi (BitVec.ofNat 32 4096) (BitVec.ofNat 32 t.val)) = _
  rw [addi_ofNat, cmpi_slt_ofNat_zero _ (by have := t.isLt; omega), select_zero]

/-- The start indices of the diagonal below: row `4096 + t`. -/
theorem down_row (t : Fin 4096) :
    Read.val_main_call2_v16 (F := Ideal) (ix2 t (0 : Fin 2)) = BitVec.ofNat 32 (4096 + t.val) := by
  unfold Read.val_main_call2_v16
  rw [concatenate_pair_apply_left (1 : Fin S4096x2.rank) _ _ concatenates_S4096x1_S4096x1_S4096x2_d1
    (ix2 t (0 : Fin 2)) rfl (ix2 t (0 : Fin 1)) (fun b => by match b with | ⟨0, _⟩ => rfl | ⟨1, _⟩ => rfl)]
  rw [Read.val_main_call2_v14_apply, Read.val_main_call2_v8_apply, Read.val_main_call2_v5_apply,
    Read.val_main_call2_v3_apply, Read.val_main_call2_v2_apply, Read.val_main_call2_c_apply,
    Read.val_main_call2_v1_apply, Read.val_main_call2_v4_apply, Read.val_main_call2_c_0_apply]
  show Scalar.select (IntOp.cmpi .slt (IntOp.addi (BitVec.ofNat 32 4096) (BitVec.ofNat 32 t.val)) 0#32) _
      (IntOp.addi (BitVec.ofNat 32 4096) (BitVec.ofNat 32 t.val)) = _
  rw [addi_ofNat, cmpi_slt_ofNat_zero _ (by have := t.isLt; omega), select_zero]

/-- The start indices of the diagonal below: column `t`. -/
theorem down_col (t : Fin 4096) :
    Read.val_main_call2_v16 (F := Ideal) (ix2 t (1 : Fin 2)) = BitVec.ofNat 32 t.val := by
  unfold Read.val_main_call2_v16
  rw [concatenate_pair_apply_right (1 : Fin S4096x2.rank) _ _ concatenates_S4096x1_S4096x1_S4096x2_d1
    (ix2 t (1 : Fin 2)) rfl rfl (ix2 t (0 : Fin 1))
    (fun b hb => by match b with | ⟨0, _⟩ => rfl | ⟨1, _⟩ => exact absurd rfl hb) rfl]
  rw [Read.val_main_call2_v15_apply, Read.val_main_call2_v13_apply, Read.val_main_call2_v10_apply,
    Read.val_main_call2_v0_apply, Read.val_main_call2_v9_apply, Read.val_main_call2_c_2_apply]
  show Scalar.select (IntOp.cmpi .slt (BitVec.ofNat 32 t.val) 0#32) _ (BitVec.ofNat 32 t.val) = _
  rw [cmpi_slt_ofNat_zero _ (by have := t.isLt; omega), select_zero]

/-- Entry `t` of the diagonal above is the similarity matrix at `(t, t + 4096)`. -/
theorem up_apply (a0 a1 : (⟨S4096x256, .f32⟩ : BufTy).Contents (Elt Ideal)) (t : Fin 4096) (p q : Fin 8192)
    (hp : p.val = t.val) (hq : q.val = t.val + 4096) :
    Read.val_main_v8 (F := Ideal) a0 a1 (ix1 t) = Read.val_main_v7 (F := Ideal) a0 a1 (ix2 p q) := by
  unfold Read.val_main_v8
  generalize Read.val_main_v7 (F := Ideal) a0 a1 = x
  have ht := t.isLt
  refine gather_entry_apply x _ t p q ?_ ?_
  · rw [up_row, toInt_toNat_ofNat _ (by omega), hp]; exact Nat.min_eq_left (by omega)
  · rw [up_col, toInt_toNat_ofNat _ (by omega), hq]; omega

/-- Entry `t` of the diagonal below is the similarity matrix at `(t + 4096, t)`. -/
theorem down_apply (a0 a1 : (⟨S4096x256, .f32⟩ : BufTy).Contents (Elt Ideal)) (t : Fin 4096) (p q : Fin 8192)
    (hp : p.val = t.val + 4096) (hq : q.val = t.val) :
    Read.val_main_v9 (F := Ideal) a0 a1 (ix1 t) = Read.val_main_v7 (F := Ideal) a0 a1 (ix2 p q) := by
  unfold Read.val_main_v9
  generalize Read.val_main_v7 (F := Ideal) a0 a1 = x
  have ht := t.isLt
  refine gather_entry_apply x _ t p q ?_ ?_
  · rw [down_row, toInt_toNat_ofNat _ (by omega), hp]; omega
  · rw [down_col, toInt_toNat_ofNat _ (by omega), hq]; exact Nat.min_eq_left (by omega)

/-- Entry `r` of the stacked diagonals is the similarity of row `r` with its partner. -/
theorem positives_apply (a0 a1 : (⟨S4096x256, .f32⟩ : BufTy).Contents (Elt Ideal)) (r : Fin 8192) :
    Read.val_main_v10 (F := Ideal) a0 a1 (ix1 r) = Cert.Spec.sim (rows a0 a1) r (Cert.Spec.partner r) := by
  have hr := r.isLt
  unfold Read.val_main_v10
  by_cases h : r.val < 4096
  · rw [concatenate_pair_apply_left (0 : Fin S8192.rank) _ _ concatenates_S4096_S4096_S8192_d0 (ix1 r) rfl
      (ix1 (⟨r.val, h⟩ : Fin 4096)) (fun b => by match b with | ⟨0, _⟩ => rfl)]
    rw [up_apply a0 a1 ⟨r.val, h⟩ r (Cert.Spec.partner r) rfl
      (by show (r.val + 4096) % 8192 = r.val + 4096; omega), sim_apply]
  · rw [concatenate_pair_apply_right (0 : Fin S8192.rank) _ _ concatenates_S4096_S4096_S8192_d0 (ix1 r) rfl rfl
      (ix1 (⟨r.val - 4096, by omega⟩ : Fin 4096))
      (fun b hb => by match b with | ⟨0, _⟩ => exact absurd rfl hb)
      (by show (r.val - 4096) + 4096 = r.val; omega)]
    rw [down_apply a0 a1 ⟨r.val - 4096, by omega⟩ r (Cert.Spec.partner r)
      (by show r.val = r.val - 4096 + 4096; omega)
      (by show (r.val + 4096) % 8192 = r.val - 4096; omega), sim_apply]

end Cert.ReferenceIdeal.RefValue

end
-- ==== Proof.RefValue4.lean ====
/-
  The reference's losses are the masked losses of the normalised rows: entry `r` of
  `−log (exp (positives / ½) / denominator)` is the loss of row `r` in the form that multiplies by `1 − [c = r]`,
  divides the similarity by one half, and takes `−log` of the quotient.
-/
import proofs.«123943_j34471407518032_2_alg».proof.Proof.Spec
import proofs.«123943_j34471407518032_2_alg».proof.Proof.Gen.ReferenceIdeal.Read
import proofs.«123943_j34471407518032_2_alg».proof.Proof.RefValue3

noncomputable section

namespace Cert.ReferenceIdeal.RefValue

open Cert.ReferenceIdeal Cert.ReferenceIdeal.Gen Idealize.ShloMosaic Idealize.ShloMosaic.StableHlo Idealize.ShloMosaic.ValueIdx

/-- Entry `r` of the reference's losses, by coordinate. -/
theorem losses_apply (a0 a1 : (⟨S4096x256, .f32⟩ : BufTy).Contents (Elt Ideal)) (r : Fin 8192) :
    Read.val_main_v29 (F := Ideal) a0 a1 (ix1 r) = Cert.Spec.lossMask (rows a0 a1) r := by
  rw [Read.val_main_v29_apply, Read.val_main_v28_apply, Read.val_main_v27_apply, Read.val_main_v26_apply,
    Read.val_main_v25_apply, positives_apply, Read.val_main_v24_apply, Read.val_main_cst_3_apply, denom_apply]
  unfold Cert.Spec.lossMask
  generalize Cert.Spec.sim (rows a0 a1) r (Cert.Spec.partner r) = s
  generalize Cert.Spec.denomMask (rows a0 a1) r = dn
  rfl

/-- The reference's losses at an index are the masked losses of the normalised rows (the quotient buffer read by
    coordinates) at the index's coordinate. -/
theorem losses_eq (a0 a1 : (⟨S4096x256, .f32⟩ : BufTy).Contents (Elt Ideal)) (i : S8192.Idx) :
    Read.val_main_v29 (F := Ideal) a0 a1 i
      = Cert.Spec.lossMask (fun r d => Read.val_main_v5 (F := Ideal) a0 a1 (ValueIdx.ix2 r d)) (i 0) := by
  obtain ⟨r, rfl⟩ : ∃ r : Fin 8192, i = ix1 r := ⟨i 0, eq_ix1 i⟩
  exact losses_apply a0 a1 r

end Cert.ReferenceIdeal.RefValue

end
-- ==== Proof.RefValue5.lean ====
/-
  The reference's normalised rows: the two argument blocks stacked, every row divided by its Euclidean norm clamped
  below by the small constant.  The row's sum of squares starts from the zero word, which adds nothing.
-/
import proofs.«123943_j34471407518032_2_alg».proof.Proof.Spec
import proofs.«123943_j34471407518032_2_alg».proof.Proof.Gen.ReferenceIdeal.Read
import Idealize.ShloMosaic.PureOps.Ideal.Laws

noncomputable section

namespace Cert.ReferenceIdeal.RefValue

open Cert.ReferenceIdeal Cert.ReferenceIdeal.Gen Idealize.ShloMosaic Idealize.ShloMosaic.StableHlo Idealize.ShloMosaic.ValueIdx

/-- The stacked arguments at `(r, d)`: the first block on rows below 4096, the second, 4096 rows down, from there. -/
theorem stack_apply (a0 a1 : (⟨S4096x256, .f32⟩ : BufTy).Contents (Elt Ideal)) (r : Fin 8192) (d : Fin 256) :
    Read.val_main_v0 (F := Ideal) a0 a1 (ix2 r d)
      = Cert.Spec.stack (fun p q => a0 (ix2 p q)) (fun p q => a1 (ix2 p q)) r d := by
  have hr := r.isLt
  unfold Read.val_main_v0 Cert.Spec.stack
  by_cases h : r.val < 4096
  · rw [dif_pos h]
    exact concatenate_pair_apply_left (0 : Fin S8192x256.rank) a0 a1 concatenates_S4096x256_S4096x256_S8192x256_d0
      (ix2 r d) rfl (ix2 (⟨r.val, h⟩ : Fin 4096) d) (fun b => by match b with | ⟨0, _⟩ => rfl | ⟨1, _⟩ => rfl)
  · rw [dif_neg h]
    exact concatenate_pair_apply_right (0 : Fin S8192x256.rank) a0 a1 concatenates_S4096x256_S4096x256_S8192x256_d0
      (ix2 r d) rfl rfl (ix2 (⟨r.val - 4096, by omega⟩ : Fin 4096) d)
      (fun b hb => by match b with | ⟨0, _⟩ => exact absurd rfl hb | ⟨1, _⟩ => rfl)
      (by show (r.val - 4096) + 4096 = r.val; omega)

/-- The quotient buffer at `(r, d)` is the stacked arguments' row `r`, normalised, at `d`. -/
theorem normalize_apply (a0 a1 : (⟨S4096x256, .f32⟩ : BufTy).Contents (Elt Ideal)) (r : Fin 8192) (d : Fin 256) :
    Read.val_main_v5 (F := Ideal) a0 a1 (ValueIdx.ix2 r d)
      = Cert.Spec.normalize (Cert.Spec.stack (fun p q => a0 (ValueIdx.ix2 p q)) (fun p q => a1 (ValueIdx.ix2 p q))) r d := by
  rw [Read.val_main_v5_apply, stack_apply, Read.val_main_v4_apply, Read.val_main_v3_apply, Read.val_main_v1_apply,
    Read.val_main_call0_v2_apply, Read.val_main_call0_v1_apply, Read.val_main_call0_cst_apply, Read.val_main_v2_apply,
    Read.val_main_cst_apply]
  have hs : (∑ k : Fin 256, (Read.val_main_call0_v0 (F := Ideal) a0 a1
        (Read.idx_main_call0_v1 (Read.idx_main_call0_v2 (Read.idx_main_v4 (ix2 r d))) k) : EReal))
      = ∑ k : Fin 256, Cert.Spec.stack (fun p q => a0 (ix2 p q)) (fun p q => a1 (ix2 p q)) r k
          * Cert.Spec.stack (fun p q => a0 (ix2 p q)) (fun p q => a1 (ix2 p q)) r k :=
    Finset.sum_congr rfl fun k _ => by
      have e : Read.idx_main_call0_v1 (Read.idx_main_call0_v2 (Read.idx_main_v4 (ix2 r d))) k = ix2 r k :=
        funext fun a => Fin.ext (by match a with | ⟨0, _⟩ => rfl | ⟨1, _⟩ => rfl)
      rw [e, Read.val_main_call0_v0_apply, stack_apply]
      rfl
  rw [hs]
  unfold Cert.Spec.normalize Cert.Spec.norm Cert.Spec.eps
  generalize Cert.Spec.stack (fun p q => a0 (ix2 p q)) (fun p q => a1 (ix2 p q)) = z
  show Ideal.div (z r d) (max (Ideal.sqrt ((Ideal.ofBits .f32 0x00000000#32 : EReal) + ∑ k : Fin 256, z r k * z r k))
      (Ideal.ofBits .f32 0x322BCC77#32))
    = Ideal.div (z r d) (max (Ideal.sqrt (∑ k : Fin 256, z r k * z r k)) (Ideal.ofBits .f32 0x322BCC77#32))
  rw [Ideal.ofBits_zero_f32, zero_add]

end Cert.ReferenceIdeal.RefValue

end
-- ==== Proof.Algebra.lean ====
/-
  The algebra of the two loss formulas on the extended reals.

  When every entry of the array is a real number, every similarity is a real number, both denominators are
  the same positive real number, and both losses are the same real number: the logarithm of the denominator
  less twice the positive similarity.
-/
import proofs.«123943_j34471407518032_2_alg».proof.Proof.Spec
import Idealize.ShloMosaic.PureOps.Ideal
import Idealize.ShloMosaic.PureOps.Ideal.Laws

noncomputable section

namespace Cert.Spec

open Idealize.ShloMosaic

/-! ### The constants -/

/-- The word `0x40000000` denotes the real number `2`. -/
theorem two_eq : two = ((2 : ℝ) : EReal) := by
  unfold two
  simp [Ideal.ofBits, Ideal.ieee, -EReal.coe_mul]; norm_num

/-- The word `0x3F000000` denotes the real number `1/2`. -/
theorem half_eq : half = ((1 / 2 : ℝ) : EReal) := by
  unfold half
  simp [Ideal.ofBits, Ideal.ieee, -EReal.coe_mul]; norm_num

/-- The word `0x322BCC77` denotes the real number `11258999 · 2⁻⁵⁰`. -/
theorem eps_eq : eps = ((11258999 * (2 : ℝ) ^ (-50 : ℤ) : ℝ) : EReal) := by
  unfold eps
  simp [Ideal.ofBits, Ideal.ieee, -EReal.coe_mul]

/-! ### Sums, products and quotients of reals -/

/-- The embedding of the reals in the extended reals commutes with finite sums. -/
theorem coe_finset_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The product of a real with the constant two. -/
theorem coe_mul_two (x : ℝ) : (x : EReal) * two = ((x * 2 : ℝ) : EReal) := by
  rw [two_eq, ← EReal.coe_mul]

/-- The quotient of a real by the constant one half is its double. -/
theorem div_half (x : ℝ) : Ideal.div (x : EReal) half = ((x * 2 : ℝ) : EReal) := by
  rw [half_eq, Ideal.div_coe (by norm_num), ← EReal.coe_mul]
  norm_num

/-- The logarithm of a positive real. -/
theorem log_of_pos {x : ℝ} (h : 0 < x) : Ideal.log (x : EReal) = ((Real.log x : ℝ) : EReal) := by
  rw [Ideal.log_coe, if_neg (not_le.mpr h)]

/-- The quotient of a real by a non-zero real. -/
theorem div_of_ne {x y : ℝ} (h : y ≠ 0) : Ideal.div (x : EReal) (y : EReal) = ((x * (1 / y) : ℝ) : EReal) := by
  rw [Ideal.div_coe h, ← EReal.coe_mul]

/-! ### The similarity and the two denominators of an array of reals -/

/-- The similarity of two rows of reals is the real inner product. -/
theorem sim_coe (f : Fin 8192 → Fin 256 → ℝ) (y : Rows) (hf : ∀ r d, y r d = (f r d : EReal))
    (r c : Fin 8192) : sim y r c = ((∑ d : Fin 256, f r d * f c d : ℝ) : EReal) := by
  unfold sim
  rw [coe_finset_sum]
  refine Finset.sum_congr rfl fun d _ => ?_
  rw [hf, hf, EReal.coe_mul]

/-- One term of the denominator by selection. -/
theorem selTerm (s : ℝ) (c r : Fin 8192) :
    (if c = r then (0 : EReal) else Ideal.exp ((s : EReal) * two))
      = ((if c = r then 0 else Real.exp (s * 2) : ℝ) : EReal) := by
  split_ifs
  · rfl
  · rw [coe_mul_two, Ideal.exp_coe]

/-- One term of the denominator by a mask: the same real. -/
theorem maskTerm (s : ℝ) (c r : Fin 8192) :
    ((1 : EReal) - (if c = r then (1 : EReal) else 0)) * Ideal.exp (Ideal.div (s : EReal) half)
      = ((if c = r then 0 else Real.exp (s * 2) : ℝ) : EReal) := by
  rw [div_half, Ideal.exp_coe]
  split_ifs
  · have h : (1 : EReal) - 1 = 0 := by
      rw [← EReal.coe_one, ← EReal.coe_sub, sub_self, EReal.coe_zero]
    rw [h, zero_mul, EReal.coe_zero]
  · rw [sub_zero, one_mul]

/-- The common denominator of row `r`: the sum over the other rows `c` of `exp (2 · ⟨f r, f c⟩)`. -/
def realDenom (f : Fin 8192 → Fin 256 → ℝ) (r : Fin 8192) : ℝ :=
  ∑ c : Fin 8192, if c = r then 0 else Real.exp ((∑ d : Fin 256, f r d * f c d) * 2)

theorem denomSel_coe (f : Fin 8192 → Fin 256 → ℝ) (y : Rows) (hf : ∀ r d, y r d = (f r d : EReal))
    (r : Fin 8192) : denomSel y r = ((realDenom f r : ℝ) : EReal) := by
  unfold denomSel realDenom
  rw [coe_finset_sum]
  refine Finset.sum_congr rfl fun c _ => ?_
  rw [sim_coe f y hf, selTerm]

theorem denomMask_coe (f : Fin 8192 → Fin 256 → ℝ) (y : Rows) (hf : ∀ r d, y r d = (f r d : EReal))
    (r : Fin 8192) : denomMask y r = ((realDenom f r : ℝ) : EReal) := by
  unfold denomMask realDenom
  rw [coe_finset_sum]
  refine Finset.sum_congr rfl fun c _ => ?_
  rw [sim_coe f y hf, maskTerm]

/-- A row is not its own partner. -/
theorem partner_ne (r : Fin 8192) : partner r ≠ r := by
  intro h
  have h1 := congrArg Fin.val h
  have h2 := r.isLt
  simp only [partner] at h1
  omega

/-- The denominator is positive: every term is non-negative and the partner's is positive. -/
theorem realDenom_pos (f : Fin 8192 → Fin 256 → ℝ) (r : Fin 8192) : 0 < realDenom f r := by
  unfold realDenom
  refine Finset.sum_pos' (fun c _ => ?_) ⟨partner r, Finset.mem_univ _, ?_⟩
  · split_ifs
    · exact le_rfl
    · exact (Real.exp_pos _).le
  · rw [if_neg (partner_ne r)]
    exact Real.exp_pos _

/-! ### The two losses agree -/

/-- On an array of reals the two loss formulas give the same value: with `D` the denominator and `p` the
    positive similarity, `log D − 2 p = −log (exp (2 p) / D)`. -/
theorem lossSel_eq_lossMask (y : Rows) (hy : ∀ r d, ∃ x : ℝ, y r d = (x : EReal)) (r : Fin 8192) :
    lossSel y r = lossMask y r := by
  choose f hf using hy
  have hD : 0 < realDenom f r := realDenom_pos f r
  have hq : 0 < Real.exp ((∑ d : Fin 256, f r d * f (partner r) d) * 2) * (1 / realDenom f r) :=
    mul_pos (Real.exp_pos _) (one_div_pos.mpr hD)
  unfold lossSel lossMask
  rw [denomSel_coe f y hf, denomMask_coe f y hf, sim_coe f y hf, div_half, Ideal.exp_coe,
    log_of_pos hD, div_of_ne hD.ne', log_of_pos hq, ← EReal.coe_sub, ← EReal.coe_neg,
    EReal.coe_eq_coe_iff,
    Real.log_mul (Real.exp_pos _).ne' (one_div_pos.mpr hD).ne', Real.log_exp, one_div, Real.log_inv]
  ring

/-! ### Normalising and stacking arrays of reals -/

/-- The constant `eps` is a positive real number. -/
theorem eps_pos : (0 : ℝ) < 11258999 * (2 : ℝ) ^ (-50 : ℤ) := by positivity

/-- The embedding of the reals commutes with the maximum. -/
theorem coe_max (x y : ℝ) : ((max x y : ℝ) : EReal) = max (x : EReal) (y : EReal) :=
  (EReal.coe_strictMono.monotone).map_max

/-- The clamped norm of a row of reals is a positive real number. -/
theorem norm_coe (f : Fin 8192 → Fin 256 → ℝ) (z : Rows) (hf : ∀ r d, z r d = (f r d : EReal)) (r : Fin 8192) :
    norm z r = ((max (Real.sqrt (∑ d : Fin 256, f r d * f r d)) (11258999 * (2 : ℝ) ^ (-50 : ℤ)) : ℝ) : EReal) := by
  have hS : (∑ d : Fin 256, z r d * z r d) = ((∑ d : Fin 256, f r d * f r d : ℝ) : EReal) := by
    rw [coe_finset_sum]
    refine Finset.sum_congr rfl fun d _ => ?_
    rw [hf, EReal.coe_mul]
  have hS0 : 0 ≤ ∑ d : Fin 256, f r d * f r d := Finset.sum_nonneg fun d _ => mul_self_nonneg _
  unfold norm
  rw [hS, Ideal.sqrt_coe, if_neg (not_lt.mpr hS0), eps_eq, coe_max]

/-- Normalising an array of reals gives an array of reals: each entry is divided by a positive real. -/
theorem normalize_real (z : Rows) (hz : ∀ r d, ∃ x : ℝ, z r d = (x : EReal)) :
    ∀ r d, ∃ x : ℝ, normalize z r d = (x : EReal) := by
  choose f hf using hz
  intro r d
  have hpos : 0 < max (Real.sqrt (∑ d : Fin 256, f r d * f r d)) (11258999 * (2 : ℝ) ^ (-50 : ℤ)) :=
    lt_max_of_lt_right eps_pos
  refine ⟨f r d * (1 / max (Real.sqrt (∑ d : Fin 256, f r d * f r d)) (11258999 * (2 : ℝ) ^ (-50 : ℤ))), ?_⟩
  show Ideal.div (z r d) (norm z r) = _
  rw [norm_coe f z hf, hf, div_of_ne hpos.ne']

/-- Stacking two arrays of reals gives an array of reals. -/
theorem stack_real (a b : Fin 4096 → Fin 256 → EReal) (ha : ∀ r d, ∃ x : ℝ, a r d = (x : EReal))
    (hb : ∀ r d, ∃ x : ℝ, b r d = (x : EReal)) : ∀ r d, ∃ x : ℝ, stack a b r d = (x : EReal) := by
  intro r d
  by_cases h : r.val < 4096
  · have e : stack a b r d = a ⟨r.val, h⟩ d := by simp only [stack, dif_pos h]
    rw [e]; exact ha _ _
  · have e : stack a b r d = b ⟨r.val - 4096, by omega⟩ d := by simp only [stack, dif_neg h]
    rw [e]; exact hb _ _

end Cert.Spec

end
-- ==== Proof.Finite.lean ====
/-
  From the printed precondition to the reality of every input entry.

  The precondition says, of each of the three input arrays, that every entry's absolute value is below the word
  of `+∞`; an extended real whose absolute value is below `⊤` is a real number.
-/
import proofs.«123943_j34471407518032_2_alg».proof.Pre_finite_inputs
import proofs.«123943_j34471407518032_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Proof.Finite

open Idealize.ShloMosaic

/-- The word `0x7F800000` denotes `⊤`. -/
theorem ofBits_inf : Ideal.ofBits .f32 0x7F800000#32 = ⊤ := by
  simp [Ideal.ofBits, Ideal.ieee]

/-- An extended real whose absolute value compares below the word of `+∞` is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The scalar shape has one index. -/
instance : Subsingleton Cert.Pre_finite_inputs.S_.Idx := ⟨fun a b => funext fun d => d.elim0⟩

/-- The precondition holds only of arrays of real numbers. -/
theorem real_of_pre [Cert.Pre_finite_inputs.Facts]
    (a0 a1 : FVec Ideal Cert.Pre_finite_inputs.S4096x256 .f32) (a2 : FVec Ideal Cert.Pre_finite_inputs.S4096 .f32)
    (h : Cert.Pre_finite_inputs.fn (F := Ideal) a0 a1 a2 = fun _ => 1#1) :
    (∀ i, ∃ x : ℝ, a0 i = (x : EReal)) ∧ (∀ i, ∃ x : ℝ, a1 i = (x : EReal))
      ∧ (∀ i, ∃ x : ℝ, a2 i = (x : EReal)) := by
  have h0 := congrFun h ValueIdx.ix0
  unfold Cert.Pre_finite_inputs.fn at h0
  dsimp only at h0
  obtain ⟨h01, h2⟩ := IntOp.andi_eq_one.1 h0
  obtain ⟨h0', h1⟩ := IntOp.andi_eq_one.1 h01
  refine ⟨fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)

end Cert.Proof.Finite

end
-- ==== Proof.lean ====
/-
  The two programs compute one contrastive loss.

  Both stack the two argument blocks into 8192 rows, divide every row by its Euclidean norm clamped below, and take the
  weighted mean, with the weights tiled twice, of a per-row loss.  With `s r c` the inner product of rows `r` and `c`
  and `p r = s r (r + 4096 mod 8192)`, one program forms the row's denominator `D r = Σ_{c ≠ r} exp (2 · s r c)` inside
  a kernel region — sixteen chunks of 512 columns per tile of 1024 rows, the diagonal replaced by zero — and the loss
  as `log (D r) − p r / ½`; the other forms the full 8192 × 8192 matrix on the host, masks the diagonal by a product
  with `1 − [c = r]`, and takes `−log (exp (p r / ½) / D r)`.  Under the precondition every input is a real number, so
  every normalised entry, every `s r c` and every `D r > 0` is real, and the two losses agree by the laws of `log` and
  `exp` on the reals.  Each program also runs to the end without a fault and leaves its arguments unchanged; for the
  kernel program that needs the normalised rows' buffer, read through two windows of the region, dealt in two halves
  between them and joined again at the region's exit.
-/
import proofs.«123943_j34471407518032_2_alg».proof.Defs
import proofs.«123943_j34471407518032_2_alg».proof.Proof.Gen.Kernel
import proofs.«123943_j34471407518032_2_alg».proof.Proof.Gen.KernelIdeal
import proofs.«123943_j34471407518032_2_alg».proof.Proof.Gen.ReferenceIdeal
import proofs.«123943_j34471407518032_2_alg».proof.Proof.Gen.Pre_finite_inputs
import proofs.«123943_j34471407518032_2_alg».proof.Proof.Gen.ReferenceIdeal.Run
import proofs.«123943_j34471407518032_2_alg».proof.Proof.Gen.ReferenceIdeal.Read
import proofs.«123943_j34471407518032_2_alg».proof.Proof.KB.Launch
import proofs.«123943_j34471407518032_2_alg».proof.Proof.KI.Value
import proofs.«123943_j34471407518032_2_alg».proof.Proof.RefValue4
import proofs.«123943_j34471407518032_2_alg».proof.Proof.RefValue5
import proofs.«123943_j34471407518032_2_alg».proof.Proof.Algebra
import proofs.«123943_j34471407518032_2_alg».proof.Proof.Finite

set_option maxRecDepth 16384

noncomputable section

namespace Cert.Proof

open Idealize.ShloMosaic Idealize.ShloMosaic.TcCoe Idealize.ShloMosaic.ValueIdx Idealize.SL.Sem

/-! ## The frames -/

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-! ## The two results are one function of the arguments -/

open Cert.KernelIdeal Cert.KernelIdeal.Hand Cert.KernelIdeal.KValue in
/-- Under the precondition the kernel program's result is the reference's composed term of the same arguments: the
    normalised rows are the same term, the per-row losses agree row by row on real entries, and the weighted mean is the
    same operations. -/
theorem result_eq (m : (ℓ : Loc Cert.KernelIdeal.nD Cert.KernelIdeal.τ Cert.KernelIdeal.sig) → Buf (Elt Ideal) ℓ) (hpre : Cert.Pre_KernelIdeal m)
    (c : Dev Cert.KernelIdeal.nD) :
    kres m c = Cert.ReferenceIdeal.Read.val_main_v36 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) := by
  obtain ⟨h0, h1, -⟩ := Cert.Proof.Finite.real_of_pre _ _ _ (hpre c)
  have hV := V_main_v5 m c
  have hreal : ∀ (r : Fin 8192) (d : Fin 256), ∃ x : ℝ, rowsK m c r d = (x : EReal) := fun r d => by
    show ∃ x : ℝ, V m c main_v5 (ix2 r d) = (x : EReal)
    rw [hV, Cert.ReferenceIdeal.RefValue.normalize_apply]
    exact Cert.Spec.normalize_real _ (Cert.Spec.stack_real _ _ (fun p q => h0 (ix2 p q)) (fun p q => h1 (ix2 p q))) r d
  have hL : lossVec (V m c main_v5) ((dats m 0 c).arrAt 2 cfg0.N)
      = Cert.ReferenceIdeal.Read.val_main_v29 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := funext fun i => by
    rw [lossVec_eq m c i, Cert.ReferenceIdeal.RefValue.losses_eq]
    refine (Cert.Spec.lossSel_eq_lossMask _ hreal (i 0)).trans ?_
    show Cert.Spec.lossMask (fun r d => V m c main_v5 (ix2 r d)) (i 0) = _
    rw [hV]
  unfold kres
  rw [hL]
  rfl

/-! ## The claims -/

theorem algebraic : Cert.algebraic_KernelIdeal_ReferenceIdeal := by
  intro m ρ m' ρ' hpre hagree
  refine ⟨fun c => Cert.KernelIdeal.Hand.kres m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2]
  exact (result_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
